-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x64 .f32) (main_arg4 : FVec F S64 .f32) (main_arg5 : FVec F S64x40 .f32) (main_arg6 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg5
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x2 : Shape := ⟨2, ![100000, 2]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S1600000x64 : Shape := ⟨2, ![1600000, 64]⟩
abbrev S1x64 : Shape := ⟨2, ![1, 64]⟩
abbrev S100000x40 : Shape := ⟨2, ![100000, 40]⟩
abbrev S4000x2 : Shape := ⟨2, ![4000, 2]⟩
abbrev S4000x40 : Shape := ⟨2, ![4000, 40]⟩
abbrev S1600000x40 : Shape := ⟨2, ![1600000, 40]⟩
abbrev S1x40 : Shape := ⟨2, ![1, 40]⟩

abbrev nBuf : Space → Nat
  | .hbm => 73
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x1, .f32⟩
  | .hbm, ⟨39, _⟩ => ⟨S100000x2, .f32⟩
  | .hbm, ⟨40, _⟩ => ⟨S100000x64, .bf16⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .bf16⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S1x64, .f32⟩
  | .hbm, ⟨56, _⟩ => ⟨S100000x40, .bf16⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x40, .bf16⟩
  | .hbm, ⟨66, _⟩ => ⟨S1600000x40, .f32⟩
  | .hbm, ⟨67, _⟩ => ⟨S_, .f32⟩
  | .hbm, ⟨68, _⟩ => ⟨S100000x40, .f32⟩
  | .hbm, ⟨69, _⟩ => ⟨S1600000x1, .i32⟩
  | .hbm, ⟨70, _⟩ => ⟨S100000x40, .f32⟩
  | .hbm, ⟨71, _⟩ => ⟨S1x40, .f32⟩
  | .hbm, ⟨72, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x64, .f32⟩
  | .local _ .vmem, ⟨5, _⟩ => ⟨S4000x64, .bf16⟩
  | .local _ .vmem, ⟨6, _⟩ => ⟨S4000x64, .bf16⟩
  | .local _ .vmem, ⟨7, _⟩ => ⟨S4000x64, .f32⟩
  | .local _ .vmem, ⟨8, _⟩ => ⟨S4000x64, .f32⟩
  | .local _ .vmem, ⟨9, _⟩ => ⟨S4000x2, .f32⟩
  | .local _ .vmem, ⟨10, _⟩ => ⟨S4000x2, .f32⟩
  | .local _ .vmem, ⟨11, _⟩ => ⟨S1x64, .f32⟩
  | .local _ .vmem, ⟨12, _⟩ => ⟨S64x40, .f32⟩
  | .local _ .vmem, ⟨13, _⟩ => ⟨S4000x40, .bf16⟩
  | .local _ .vmem, ⟨14, _⟩ => ⟨S4000x40, .bf16⟩
  | .local _ .vmem, ⟨15, _⟩ => ⟨S4000x40, .f32⟩
  | .local _ .vmem, ⟨16, _⟩ => ⟨S4000x40, .f32⟩
  | .local _ .vmem, ⟨17, _⟩ => ⟨S4000x1, .f32⟩
  | .local _ .vmem, ⟨18, _⟩ => ⟨S4000x1, .f32⟩
  | .local _ .vmem, ⟨19, _⟩ => ⟨S1x40, .f32⟩
  | .local _ .vmem, ⟨20, _⟩ => ⟨S4000x40, .f32⟩
  | .local _ .vmem, ⟨21, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_10 : Ref sig .tc := ⟨.hbm, 57, rfl⟩
abbrev main_v34 : Ref sig .tc := ⟨.hbm, 58, rfl⟩
abbrev main_v35 : Ref sig .tc := ⟨.hbm, 59, rfl⟩
abbrev main_c_11 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_12 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x40 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  concatenates_S100000x1_S100000x1_S100000x2_d1 : Shape.Concatenates [S100000x1, S100000x1] S100000x2 1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S4000x2_S4000x1_0_0 : ∀ a, (![0, 0] : Fin 2 → Nat) a + S4000x1.size a ≤ S4000x2.size a
  inb_S4000x2_S4000x1_0_1 : ∀ a, (![0, 1] : Fin 2 → Nat) a + S4000x1.size a ≤ S4000x2.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x40_S64x40_0_0 : ∀ a, (![0, 0] : Fin 2 → Nat) a + S64x40.size a ≤ S64x40.size a
  h_S64x40 : 0 < S64x40.numel
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  packedbf16_S4000x40_S4000x40_0_0 : (Rect.unit (s := S4000x40) ![0, 0] S4000x40.size inb_S4000x40_S4000x40_0_0).PackedRows (EltTy.packing .bf16)
  bcast_S_S100000x40 : S_.BroadcastsInDim S100000x40 (![] : Fin 0 → Fin S100000x40.rank)
  shapeCasts_S40_S1x40 : S40.ShapeCasts S1x40
  shapeCasts_S4000x40_S4000x40 : S4000x40.ShapeCasts S4000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  scatter_S100000_S1600000x1_S1600000_n_0_0_1_wf : ScatterDims.WF S100000 S1600000x1 S1600000 [] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x40_S4000x40_1_0_0_1_n_n_wf : DotDims.WF S4000x64 S64x40 S4000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x2.size a ≤ S100000x2.size a
  hwx1_1 : ∀ i : grid1.Coords, EltTy.bits .f32 = 32 ∨ (Rect.block (s := S100000x2) S4000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .f32 = 32 ∨ (Rect.block (s := S64x40) S64x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x40.size a ≤ S100000x40.size a
  hwx1_4 : ∀ i : grid1.Coords, EltTy.bits .bf16 = 32 ∨ (Rect.block (s := S100000x40) S4000x40.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x40.size a ≤ S100000x40.size a
  hwx2_0 : ∀ i : grid2.Coords, EltTy.bits .f32 = 32 ∨ (Rect.block (s := S100000x40) S4000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x40.size a ≤ S100000x40.size a
  hwx2_3 : ∀ i : grid2.Coords, EltTy.bits .f32 = 32 ∨ (Rect.block (s := S100000x40) S4000x40.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S4000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S4000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S4000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S4000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 119
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x64, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000x1, .f32⟩
  | .hbm, ⟨55, _⟩ => ⟨S100000x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S1600000, .f32⟩
  | .hbm, ⟨65, _⟩ => ⟨S_, .f32⟩
  | .hbm, ⟨66, _⟩ => ⟨S100000, .f32⟩
  | .hbm, ⟨67, _⟩ => ⟨S1600000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S1600000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .i1⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .i1⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S_, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x64, .f32⟩
  | .hbm, ⟨95, _⟩ => ⟨S100000x64, .f32⟩
  | .hbm, ⟨96, _⟩ => ⟨S100000x40, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x40, .f32⟩
  | .hbm, ⟨106, _⟩ => ⟨S_, .f32⟩
  | .hbm, ⟨107, _⟩ => ⟨S100000x40, .f32⟩
  | .hbm, ⟨108, _⟩ => ⟨S1600000x1, .i32⟩
  | .hbm, ⟨109, _⟩ => ⟨S100000x40, .f32⟩
  | .hbm, ⟨110, _⟩ => ⟨S100000x1, .f32⟩
  | .hbm, ⟨111, _⟩ => ⟨S100000x40, .f32⟩
  | .hbm, ⟨112, _⟩ => ⟨S100000x40, .f32⟩
  | .hbm, ⟨113, _⟩ => ⟨S1x40, .f32⟩
  | .hbm, ⟨114, _⟩ => ⟨S100000x40, .f32⟩
  | .hbm, ⟨115, _⟩ => ⟨S100000x40, .f32⟩
  | .hbm, ⟨116, _⟩ => ⟨S_, .f32⟩
  | .hbm, ⟨117, _⟩ => ⟨S100000x40, .f32⟩
  | .hbm, ⟨118, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call2_cst : Ref sig .tc := ⟨.hbm, 60, rfl⟩
abbrev main_call2_v0 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_cst_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_13 : Ref sig .tc := ⟨.hbm, 73, rfl⟩
abbrev main_v45 : Ref sig .tc := ⟨.hbm, 74, rfl⟩
abbrev main_v46 : Ref sig .tc := ⟨.hbm, 75, rfl⟩
abbrev main_cst_14 : Ref sig .tc := ⟨.hbm, 76, rfl⟩
abbrev main_v47 : Ref sig .tc := ⟨.hbm, 77, rfl⟩
abbrev main_v48 : Ref sig .tc := ⟨.hbm, 78, rfl⟩
abbrev main_cst_15 : Ref sig .tc := ⟨.hbm, 79, rfl⟩
abbrev main_call3_v0 : Ref sig .tc := ⟨.hbm, 80, rfl⟩
abbrev main_call3_v1 : Ref sig .tc := ⟨.hbm, 81, rfl⟩
abbrev main_v49 : Ref sig .tc := ⟨.hbm, 82, rfl⟩
abbrev main_cst_16 : Ref sig .tc := ⟨.hbm, 83, rfl⟩
abbrev main_v50 : Ref sig .tc := ⟨.hbm, 84, rfl⟩
abbrev main_v51 : Ref sig .tc := ⟨.hbm, 85, rfl⟩
abbrev main_cst_17 : Ref sig .tc := ⟨.hbm, 86, rfl⟩
abbrev main_v52 : Ref sig .tc := ⟨.hbm, 87, rfl⟩
abbrev main_v53 : Ref sig .tc := ⟨.hbm, 88, rfl⟩
abbrev main_cst_18 : Ref sig .tc := ⟨.hbm, 89, rfl⟩
abbrev main_call4_v0 : Ref sig .tc := ⟨.hbm, 90, rfl⟩
abbrev main_call4_v1 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_c_19 : Ref sig .tc := ⟨.hbm, 97, rfl⟩
abbrev main_v59 : Ref sig .tc := ⟨.hbm, 98, rfl⟩
abbrev main_v60 : Ref sig .tc := ⟨.hbm, 99, rfl⟩
abbrev main_c_20 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_21 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_call5_cst : Ref sig .tc := ⟨.hbm, 116, rfl⟩
abbrev main_call5_v0 : Ref sig .tc := ⟨.hbm, 117, rfl⟩
abbrev main_v75 : Ref sig .tc := ⟨.hbm, 118, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.Spec.lean ====
/-
  The mathematics of this certificate, stated once, over literal shapes, at the ideal instance (floats are extended reals).

  A graph of 100000 nodes is given by two lists of 1600000 node numbers, `src` and `dst` (edge e runs from src e to dst e).
  * `count l` : for each node, the number of list entries that name it, as a sum of ones scattered into zeros.
  * `nrm l`   : count^(-1/2) where the count is positive, 0 elsewhere (the symmetric degree normalisation).
  * `rowsOf src` : the list of rows a gather reads: a negative entry is taken from the end (entry + 100000).
  * `aggr64 h src dst` / `aggr40` : row `dst e` of the result accumulates row `src e` of `h`, from zeros
    (a gather of rows followed by a scatter-add of rows).
  * `layer1 x n w` : (x · w) scaled row by row with the column n           — the first kernel's block function;
  * `layer2 a n2 b w` : (max(a·n2[:,1] + b, 0) · w) scaled row by row with n2[:,0]   — the second kernel's;
  * `layer3 a n b` : max(a·n + b, 0)                                      — the third kernel's.
  `G1`, `G2`, `G3` are these as whole arrays.
-/
import proofs.«103134_j59433757442077_2_alg».proof.KernelIdeal
import proofs.«103134_j59433757442077_2_alg».proof.Proof.Gen.KernelIdeal
import Idealize.ShloMosaic.PureOps.Ideal
import Idealize.ShloMosaic.Lib.ValueIdx

noncomputable section

namespace Cert.KernelIdeal.Spec

open Cert.KernelIdeal Cert.KernelIdeal.Facts₀ Idealize.ShloMosaic Idealize.ShloMosaic.ValueIdx
open scoped BigOperators

/-- How many entries of the list `l` name each node: ones scattered additively into zeros. -/
def count (l : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 l)
    (broadcastInDim S1600000 ![] bcast_S_S1600000 (constant (F := Ideal) S_ .f32 0x3F800000#32))

/-- The degree normalisation: `count ^ (-1/2)` where the count is positive, `0` elsewhere. -/
def nrm (l : IVec S1600000 32) : FVec Ideal S100000 .f32 :=
  select
    (cmpf .ogt (count l) (broadcastInDim S100000 ![] bcast_S_S100000 (constant (F := Ideal) S_ .f32 0x00000000#32)))
    (Host.powf (count l) (broadcastInDim S100000 ![] bcast_S_S100000 (constant (F := Ideal) S_ .f32 0xBF000000#32)))
    (broadcastInDim S100000 ![] bcast_S_S100000 (id (constant (F := Ideal) S_ .f32 0x00000000#32)))

/-- The rows a gather reads, one per edge: a negative entry counts from the end. -/
def rowsOf (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Row `dst e` of the result accumulates row `src e` of `h` (64 columns), from zeros. -/
def aggr64 (h : FVec Ideal S100000x64 .f32) (src dst : IVec S1600000 32) : FVec Ideal S100000x64 .f32 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h (rowsOf src))

/-- Row `dst e` of the result accumulates row `src e` of `h` (40 columns), from zeros. -/
def aggr40 (h : FVec Ideal S100000x40 .f32) (src dst : IVec S1600000 32) : FVec Ideal S100000x40 .f32 :=
  Host.scatterAdd (F := Ideal) scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 dst)
    (Host.gather gather_S100000x40_S1600000x1_S1600000x40_1_0_n_n_0_1_140 h (rowsOf src))

/-- Entry (p, q) of the first kernel's result: row p of `x` against column q of `w`, scaled by `n` at row p. -/
def layer1 (x : FVec Ideal S100000x128 .f32) (n : FVec Ideal S100000x1 .f32) (w : FVec Ideal S128x64 .f32)
    (p : Fin 100000) (q : Fin 64) : EReal :=
  (∑ k : Fin 128, x (ix2 p k) * w (ix2 k q)) * n (ix2 p (0 : Fin 1))

/-- Entry (p, q) of the second kernel's result: row p of `max (a · n2[:,1] + b) 0` against column q of `w`, scaled by
    `n2` at (p, 0). -/
def layer2 (a : FVec Ideal S100000x64 .f32) (n2 : FVec Ideal S100000x2 .f32) (b : FVec Ideal S1x64 .f32)
    (w : FVec Ideal S64x40 .f32) (p : Fin 100000) (q : Fin 40) : EReal :=
  (∑ k : Fin 64, max (a (ix2 p k) * n2 (ix2 p (1 : Fin 2)) + b (ix2 (0 : Fin 1) k)) (Ideal.ofBits .f32 0x00000000#32)
      * w (ix2 k q)) * n2 (ix2 p (0 : Fin 2))

/-- Entry (p, q) of the third kernel's result: `max (a · n + b) 0`. -/
def layer3 (a : FVec Ideal S100000x40 .f32) (n : FVec Ideal S100000x1 .f32) (b : FVec Ideal S1x40 .f32)
    (p : Fin 100000) (q : Fin 40) : EReal :=
  max (a (ix2 p q) * n (ix2 p (0 : Fin 1)) + b (ix2 (0 : Fin 1) q)) (Ideal.ofBits .f32 0x00000000#32)

/-- The three kernels' results as whole arrays. -/
def G1 (x : FVec Ideal S100000x128 .f32) (n : FVec Ideal S100000x1 .f32) (w : FVec Ideal S128x64 .f32) :
    FVec Ideal S100000x64 .bf16 := fun i => layer1 x n w (i 0) (i 1)
def G2 (a : FVec Ideal S100000x64 .f32) (n2 : FVec Ideal S100000x2 .f32) (b : FVec Ideal S1x64 .f32)
    (w : FVec Ideal S64x40 .f32) : FVec Ideal S100000x40 .bf16 := fun i => layer2 a n2 b w (i 0) (i 1)
def G3 (a : FVec Ideal S100000x40 .f32) (n : FVec Ideal S100000x1 .f32) (b : FVec Ideal S1x40 .f32) :
    FVec Ideal S100000x40 .f32 := fun i => layer3 a n b (i 0) (i 1)

theorem G1_ix2 (x n w) (p : Fin 100000) (q : Fin 64) : G1 x n w (ix2 p q) = layer1 x n w p q := rfl
theorem G2_ix2 (a n2 b w) (p : Fin 100000) (q : Fin 40) : G2 a n2 b w (ix2 p q) = layer2 a n2 b w p q := rfl
theorem G3_ix2 (a n b) (p : Fin 100000) (q : Fin 40) : G3 a n b (ix2 p q) = layer3 a n b p q := rfl

end Cert.KernelIdeal.Spec

end
-- ==== Proof.Layout.lean ====
/-
  The small re-layings the host does between the calls, as functions, each read at an index:
  a length-100000 vector kept as a 100000 x 1 column (`col`), two such columns side by side (`norms2`), and a bias
  vector kept as a 1 x n row (`row64`, `row40`).
-/
import proofs.«103134_j59433757442077_2_alg».proof.Proof.Spec
import Idealize.ShloMosaic.Lib.Pipeline.Value
import Idealize.ShloMosaic.Lib.ValueLayout

noncomputable section

namespace Cert.KernelIdeal.Spec

open Cert.KernelIdeal Cert.KernelIdeal.Facts₀ Idealize.ShloMosaic Idealize.ShloMosaic.ValueIdx

/-- A vector of one entry per node as a column. -/
def col (x : FVec Ideal S100000 .f32) : FVec Ideal S100000x1 .f32 :=
  shapeCast S100000x1 x shapeCasts_S100000_S100000x1

/-- The two degree normalisations side by side: column 0 from the list `l1`, column 1 from `l2`. -/
def norms2 (l1 l2 : IVec S1600000 32) : FVec Ideal S100000x2 .f32 :=
  concatenate S100000x2 1 [⟨S100000x1, col (nrm l1)⟩, ⟨S100000x1, col (nrm l2)⟩] concatenates_S100000x1_S100000x1_S100000x2_d1

/-- A bias of 64 entries as a row. -/
def row64 (b : FVec Ideal S64 .f32) : FVec Ideal S1x64 .f32 := shapeCast S1x64 b shapeCasts_S64_S1x64
/-- A bias of 40 entries as a row. -/
def row40 (b : FVec Ideal S40 .f32) : FVec Ideal S1x40 .f32 := shapeCast S1x40 b shapeCasts_S40_S1x40

/-- The column's entry in row p is the vector's entry p. -/
theorem col_apply (x : FVec Ideal S100000 .f32) (p : Fin 100000) : col x (ix2 p (0 : Fin 1)) = x (ix1 p) := by
  unfold col
  exact shapeCast_apply x shapeCasts_S100000_S100000x1 (ix2 p (0 : Fin 1)) (ix1 p) (by
    rw [Shape.rowMajor_val_two, Shape.rowMajor_val_one]; show p.val = p.val * 1 + 0; omega)

/-- The row's entry in column k is the vector's entry k. -/
theorem row64_apply (b : FVec Ideal S64 .f32) (k : Fin 64) : row64 b (ix2 (0 : Fin 1) k) = b (ix1 k) := by
  unfold row64
  exact shapeCast_apply b shapeCasts_S64_S1x64 (ix2 (0 : Fin 1) k) (ix1 k) (by
    rw [Shape.rowMajor_val_two, Shape.rowMajor_val_one]; show k.val = 0 * 64 + k.val; omega)
theorem row40_apply (b : FVec Ideal S40 .f32) (k : Fin 40) : row40 b (ix2 (0 : Fin 1) k) = b (ix1 k) := by
  unfold row40
  exact shapeCast_apply b shapeCasts_S40_S1x40 (ix2 (0 : Fin 1) k) (ix1 k) (by
    rw [Shape.rowMajor_val_two, Shape.rowMajor_val_one]; show k.val = 0 * 40 + k.val; omega)

/-- Column 0 of the pair is the first list's normalisation … -/
theorem norms2_apply0 (l1 l2 : IVec S1600000 32) (p : Fin 100000) :
    norms2 l1 l2 (ix2 p (0 : Fin 2)) = nrm l1 (ix1 p) := by
  unfold norms2
  refine (concatenate_pair_apply_left (t := S100000x2) (s₁ := S100000x1) (s₂ := S100000x1) (1 : Fin 2) _ _
    concatenates_S100000x1_S100000x1_S100000x2_d1 (ix2 p (0 : Fin 2)) rfl (ix2 p (0 : Fin 1)) (fun b => by
      match b with
      | ⟨0, _⟩ => rfl
      | ⟨1, _⟩ => rfl)).trans (col_apply _ p)

/-- … and column 1 the second's. -/
theorem norms2_apply1 (l1 l2 : IVec S1600000 32) (p : Fin 100000) :
    norms2 l1 l2 (ix2 p (1 : Fin 2)) = nrm l2 (ix1 p) := by
  unfold norms2
  refine (concatenate_pair_apply_right (t := S100000x2) (s₁ := S100000x1) (s₂ := S100000x1) (1 : Fin 2) _ _
    concatenates_S100000x1_S100000x1_S100000x2_d1 (ix2 p (1 : Fin 2)) rfl rfl (ix2 p (0 : Fin 1)) (fun b hb => by
      match b with
      | ⟨0, _⟩ => rfl
      | ⟨1, _⟩ => exact absurd rfl hb) (by rfl)).trans (col_apply _ p)

end Cert.KernelIdeal.Spec

end
-- ==== Proof.LibFinite.lean ====
import Idealize.ShloMosaic.PureOps.Ideal
import Idealize.ShloMosaic.PureOps.Ideal.Laws
import Idealize.ShloMosaic.Lib.ValueIdx

/-!
  Extended reals that are real numbers, and the operations that keep them so.

  The ideal float values are extended reals. An entry that is the coercion of a real number (neither infinity) stays one
  under sums, products, maxima, finite sums, real powers, gathers, accumulating scatters and selections; and over such
  entries a dot product may be scaled inside the sum.
-/

noncomputable section

namespace Idealize.ShloMosaic.LibFinite

open Idealize.ShloMosaic Idealize.ShloMosaic.ValueIdx
open scoped BigOperators

/-- An extended real that is a real number: the coercion of some `r : ℝ`, so neither infinity. -/
def IsReal (x : EReal) : Prop := ∃ r : ℝ, x = (r : EReal)

/-- Zero is a real number. -/
theorem IsReal.zero : IsReal (0 : EReal) := ⟨0, rfl⟩

/-- The coercion of a real number is one. -/
theorem IsReal.coe (r : ℝ) : IsReal (r : EReal) := ⟨r, rfl⟩

/-- The sum of two real numbers is real. -/
theorem IsReal.add (a b : EReal) : IsReal a → IsReal b → IsReal (a + b) := by
  rintro ⟨x, rfl⟩ ⟨y, rfl⟩; exact ⟨x + y, (EReal.coe_add x y).symm⟩

/-- The product of two real numbers is real. -/
theorem IsReal.mul (a b : EReal) : IsReal a → IsReal b → IsReal (a * b) := by
  rintro ⟨x, rfl⟩ ⟨y, rfl⟩; exact ⟨x * y, (EReal.coe_mul x y).symm⟩

/-- The larger of two real numbers is real. -/
theorem IsReal.max (a b : EReal) : IsReal a → IsReal b → IsReal (Max.max a b) := by
  intro ha hb
  rcases le_total a b with h | h
  · rw [max_eq_right h]; exact hb
  · rw [max_eq_left h]; exact ha

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact IsReal.add _ _ (h a (Finset.mem_insert_self a s)) (ih fun i hi => h i (Finset.mem_insert_of_mem hi))

/-- A binary pattern whose exponent field is not all ones denotes a real number (a zero, a subnormal or a normal). -/
theorem isReal_ieee_of_exponent_ne (e m : ℕ) {w : ℕ} (b : BitVec w) (h : (b.extractLsb' m e).toNat ≠ 2 ^ e - 1) :
    IsReal (Ideal.ieee e m b) := by
  unfold Ideal.ieee
  dsimp only
  rw [if_neg h]
  split <;> exact ⟨_, rfl⟩

/-- The single-precision word of all zero bits denotes a real number (zero). -/
theorem isReal_ofBits_zero : IsReal (Ideal.ofBits .f32 0x00000000#32) := by
  rw [Ideal.ofBits_zero_f32]; exact IsReal.zero

/-- The single-precision word `0x3F800000` (one) denotes a real number. -/
theorem isReal_ofBits_one : IsReal (Ideal.ofBits .f32 0x3F800000#32) := by
  show IsReal (Ideal.ieee 8 23 (0x3F800000#32 : BitVec 32))
  exact isReal_ieee_of_exponent_ne 8 23 (0x3F800000#32 : BitVec 32) (by decide)

/-- The single-precision word `0xBF000000` (minus one half) denotes a real number. -/
theorem isReal_ofBits_neg_half : IsReal (Ideal.ofBits .f32 0xBF000000#32) := by
  show IsReal (Ideal.ieee 8 23 (0xBF000000#32 : BitVec 32))
  exact isReal_ieee_of_exponent_ne 8 23 (0xBF000000#32 : BitVec 32) (by decide)

/-- The power of a real base to a real exponent is real (the real power function). -/
theorem isReal_pow (x y : EReal) : IsReal x → IsReal y → IsReal (Ideal.pow x y) := by
  rintro ⟨a, rfl⟩ ⟨b, rfl⟩; exact ⟨Real.rpow a b, rfl⟩

/-- An accumulating scatter of real updates into a real array is real at every entry: the entry plus a finite sum of
    the updates that land on it. -/
theorem isReal_scatterAdd {s si su : Shape} (d : ScatterDims s si su) {w : Nat} (x : s.Idx → EReal) (idx : IVec si w)
    (u : su.Idx → EReal) (hx : ∀ i, IsReal (x i)) (hu : ∀ j, IsReal (u j)) (i : s.Idx) :
    IsReal (Host.scatterAdd (F := Ideal) (φ := .f32) d x idx u i) := by
  show IsReal (x i + ∑ j ∈ Finset.univ.filter (fun j => d.resultIdx? j idx = some i), u j)
  exact IsReal.add _ _ (hx i) (IsReal.sum _ _ fun j _ => hu j)

/-- A gather of a real array is real at every entry: each entry of the result is an entry of the operand. -/
theorem isReal_gather {s si t : Shape} {w : Nat} (d : GatherDims s si t) (x : s.Idx → EReal) (idx : IVec si w)
    (hx : ∀ i, IsReal (x i)) (j : t.Idx) : IsReal (Host.gather d x idx j) := hx _

/-- A selection between two real entries is real. -/
theorem isReal_select {s : Shape} (c : IVec s 1) (a b : s.Idx → EReal) (i : s.Idx) :
    IsReal (a i) → IsReal (b i) → IsReal (select c a b i) := by
  intro ha hb
  rw [select_apply]
  unfold Scalar.select
  split <;> assumption

/-- Over real entries a dot product scaled by a real number is the dot product of the scaled first factor:
    (∑ₖ aₖ·bₖ)·c = ∑ₖ (aₖ·c)·bₖ. -/
theorem dot_scale {K : ℕ} (a b : Fin K → EReal) (c : EReal) (ha : ∀ k, IsReal (a k)) (hb : ∀ k, IsReal (b k))
    (hc : IsReal c) : (∑ k, a k * b k) * c = ∑ k, (a k * c) * b k := by
  choose a' ha' using ha
  choose b' hb' using hb
  obtain ⟨c', rfl⟩ := hc
  have e1 : ∀ k, a k * b k = ((a' k * b' k : ℝ) : EReal) := fun k => by rw [ha' k, hb' k, EReal.coe_mul]
  have e2 : ∀ k, (a k * (c' : EReal)) * b k = ((a' k * c' * b' k : ℝ) : EReal) := fun k => by
    rw [ha' k, hb' k, EReal.coe_mul, EReal.coe_mul]
  simp only [e1, e2]
  rw [← coe_sum, ← coe_sum, ← EReal.coe_mul, Finset.sum_mul]
  congr 1
  exact Finset.sum_congr rfl fun k _ => by ring

/-- A dot product of real entries is real. -/
theorem isReal_dot {K : ℕ} (a b : Fin K → EReal) : (∀ k, IsReal (a k)) → (∀ k, IsReal (b k)) →
    IsReal (∑ k, a k * b k) :=
  fun ha hb => IsReal.sum _ _ fun k _ => IsReal.mul _ _ (ha k) (hb k)

end Idealize.ShloMosaic.LibFinite

end
-- ==== Proof.SpecFinite.lean ====
import proofs.«103134_j59433757442077_2_alg».proof.Proof.Layout
import proofs.«103134_j59433757442077_2_alg».proof.Proof.LibFinite
import Idealize.ShloMosaic.Lib.Pipeline.Value

/-!
  Every entry of the host-side quantities of the specification is a real number (neither infinity), given real inputs:
  the node counts, the degree normalisation, the first layer, the column re-laying, and the two row aggregations.
-/

noncomputable section

namespace Cert.KernelIdeal.Spec

open Cert.KernelIdeal Cert.KernelIdeal.Facts₀ Idealize.ShloMosaic Idealize.ShloMosaic.ValueIdx Idealize.ShloMosaic.LibFinite
open scoped BigOperators

/-- A rank-0 array broadcast to any shape reads its one entry everywhere; so it is real wherever that entry is. -/
theorem isReal_bcast_scalar {t : Shape} (dims : Fin S_.rank → Fin t.rank) (h : S_.BroadcastsInDim t dims)
    (x : S_.Idx → EReal) (hx : IsReal (x ix0)) (j : t.Idx) : IsReal (broadcastInDim t dims h x j) := by
  rw [broadcastInDim_apply dims h x j ix0 (fun a => a.elim0)]; exact hx

/-- A node's count is a real number: zero plus a finite sum of ones. -/
theorem isReal_count (l : IVec S1600000 32) (i : S100000.Idx) : IsReal (count l i) := by
  unfold count
  exact isReal_scatterAdd _ _ _ _ (fun i => isReal_bcast_scalar _ _ _ isReal_ofBits_zero i)
    (fun j => isReal_bcast_scalar _ _ _ isReal_ofBits_one j) i

/-- The entrywise power of two arrays is real at an entry where both are. -/
theorem isReal_powf {s : Shape} (x y : FVec Ideal s .f32) (i : s.Idx) (hx : IsReal (x i)) (hy : IsReal (y i)) :
    IsReal (Host.powf x y i) := isReal_pow _ _ hx hy

/-- A node's normalisation is a real number: a real power of its real count, or zero. -/
theorem isReal_nrm (l : IVec S1600000 32) (i : S100000.Idx) : IsReal (nrm l i) := by
  unfold nrm
  refine isReal_select _ _ _ i ?_ ?_
  · exact isReal_powf _ _ i (isReal_count l i) (isReal_bcast_scalar _ _ _ isReal_ofBits_neg_half i)
  · exact isReal_bcast_scalar _ _ _ isReal_ofBits_zero i

/-- An entry of the first layer is real when the three operands are: a dot product of real rows times a real scale. -/
theorem isReal_layer1 (x : FVec Ideal S100000x128 .f32) (n : FVec Ideal S100000x1 .f32) (w : FVec Ideal S128x64 .f32)
    (hx : ∀ i, IsReal (x i)) (hn : ∀ i, IsReal (n i)) (hw : ∀ i, IsReal (w i)) (p : Fin 100000) (q : Fin 64) :
    IsReal (layer1 x n w p q) := by
  unfold layer1
  exact IsReal.mul _ _ (isReal_dot (fun k : Fin 128 => x (ix2 p k)) (fun k : Fin 128 => w (ix2 k q)) (fun k => hx _) (fun k => hw _)) (hn _)

/-- The first layer as a whole array has real entries when the three operands do. -/
theorem isReal_G1 (x : FVec Ideal S100000x128 .f32) (n : FVec Ideal S100000x1 .f32) (w : FVec Ideal S128x64 .f32)
    (hx : ∀ i, IsReal (x i)) (hn : ∀ i, IsReal (n i)) (hw : ∀ i, IsReal (w i)) (i : S100000x64.Idx) :
    IsReal (G1 x n w i) := by
  obtain ⟨p, q, rfl⟩ : ∃ (p : Fin 100000) (q : Fin 64), i = ix2 p q := ⟨i 0, i 1, eq_ix2 i⟩
  rw [G1_ix2]
  exact isReal_layer1 x n w hx hn hw p q

/-- A vector with real entries, kept as a column, has real entries. -/
theorem isReal_col (x : FVec Ideal S100000 .f32) (hx : ∀ i, IsReal (x i)) (i : S100000x1.Idx) : IsReal (col x i) := by
  obtain ⟨p, u, rfl⟩ : ∃ (p : Fin 100000) (u : Fin 1), i = ix2 p u := ⟨i 0, i 1, eq_ix2 i⟩
  have hu : u = (0 : Fin 1) := Subsingleton.elim _ _
  subst hu
  rw [col_apply]
  exact hx _

/-- The 64-column row aggregation of an array with real entries has real entries: zero plus a finite sum of gathered rows. -/
theorem isReal_aggr64 (h : FVec Ideal S100000x64 .f32) (src dst : IVec S1600000 32) (hh : ∀ i, IsReal (h i))
    (i : S100000x64.Idx) : IsReal (aggr64 h src dst i) := by
  unfold aggr64
  exact isReal_scatterAdd _ _ _ _ (fun i => isReal_bcast_scalar _ _ _ isReal_ofBits_zero i)
    (fun j => isReal_gather _ _ _ hh j) i

/-- The 40-column row aggregation of an array with real entries has real entries. -/
theorem isReal_aggr40 (h : FVec Ideal S100000x40 .f32) (src dst : IVec S1600000 32) (hh : ∀ i, IsReal (h i))
    (i : S100000x40.Idx) : IsReal (aggr40 h src dst i) := by
  unfold aggr40
  exact isReal_scatterAdd _ _ _ _ (fun i => isReal_bcast_scalar _ _ _ isReal_ofBits_zero i)
    (fun j => isReal_gather _ _ _ hh j) i

end Cert.KernelIdeal.Spec

end
-- ==== Proof.RefValue.lean ====
/-
  The reference's stages are the specification's functions. Its degree normalisations, its gathers along the edges and its
  scatter-adds are the same operations the kernel's host code applies, so those stages are the same functions; its three
  dense layers are read at an index: the reference scales the rows of the left operand BEFORE the product with the weights,
  the kernels scale the product's rows AFTER — equal where every entry involved is a real number (a finite sum of products
  of reals commutes with a real factor).
-/
import proofs.«103134_j59433757442077_2_alg».proof.Proof.RefReadP
import proofs.«103134_j59433757442077_2_alg».proof.Proof.Layout
import proofs.«103134_j59433757442077_2_alg».proof.Proof.LibFinite
import proofs.«103134_j59433757442077_2_alg».proof.Proof.SpecFinite

set_option maxRecDepth 16384

noncomputable section

namespace Cert.ReferenceIdeal.RefValue

open Cert.ReferenceIdeal Cert.ReferenceIdeal.ReadP Idealize.ShloMosaic Idealize.ShloMosaic.ValueIdx Idealize.ShloMosaic.LibFinite
open Cert.KernelIdeal (Spec.nrm Spec.count Spec.col Spec.norms2 Spec.row64 Spec.row40 Spec.aggr64 Spec.aggr40 Spec.G1 Spec.G2 Spec.G3
  Spec.layer1 Spec.layer2 Spec.layer3)
open scoped BigOperators

/-! ## The shared chains -/

/-- The reference's normalisation of the source list, computed for the first layer … -/
theorem nrm_src (x1 : (⟨S1600000, .i32⟩ : BufTy).Contents (Elt Ideal)) : val_main_v11 (F := Ideal) x1 = Cert.KernelIdeal.Spec.nrm x1 := rfl
/-- … and again for the second. -/
theorem nrm_src' (x1 : (⟨S1600000, .i32⟩ : BufTy).Contents (Elt Ideal)) : val_main_v49 (F := Ideal) x1 = Cert.KernelIdeal.Spec.nrm x1 := rfl
/-- The reference's normalisation of the destination list, computed for the first layer … -/
theorem nrm_dst (x2 : (⟨S1600000, .i32⟩ : BufTy).Contents (Elt Ideal)) : val_main_v16 (F := Ideal) x2 = Cert.KernelIdeal.Spec.nrm x2 := rfl
/-- … and again for the second. -/
theorem nrm_dst' (x2 : (⟨S1600000, .i32⟩ : BufTy).Contents (Elt Ideal)) : val_main_v54 (F := Ideal) x2 = Cert.KernelIdeal.Spec.nrm x2 := rfl

/-- The first aggregation along the edges is the specification's, of the first dense layer's result. -/
theorem aggr1 (x0 : (⟨S100000x128, .f32⟩ : BufTy).Contents (Elt Ideal)) (x1 x2 : (⟨S1600000, .i32⟩ : BufTy).Contents (Elt Ideal)) (x3 : (⟨S128x64, .f32⟩ : BufTy).Contents (Elt Ideal)) :
    val_main_v30 (F := Ideal) x0 x1 x2 x3 = Cert.KernelIdeal.Spec.aggr64 (val_main_v20 (F := Ideal) x0 x1 x3) x1 x2 := rfl

/-- The second aggregation along the edges is the specification's, of the second dense layer's result. -/
theorem aggr2 (x0 : (⟨S100000x128, .f32⟩ : BufTy).Contents (Elt Ideal)) (x1 x2 : (⟨S1600000, .i32⟩ : BufTy).Contents (Elt Ideal)) (x3 : (⟨S128x64, .f32⟩ : BufTy).Contents (Elt Ideal)) (x4 : (⟨S64, .f32⟩ : BufTy).Contents (Elt Ideal)) (x5 : (⟨S64x40, .f32⟩ : BufTy).Contents (Elt Ideal)) :
    val_main_v68 (F := Ideal) x0 x1 x2 x3 x4 x5 = Cert.KernelIdeal.Spec.aggr40 (val_main_v58 (F := Ideal) x0 x1 x2 x3 x4 x5) x1 x2 := rfl

/-! ## Index equations of the generated read-at-an-index lemmas, in coordinates -/

theorem lidx20 (p : Fin 100000) (q : Fin 64) (k : Fin 128) : lidx_main_v20 (ix2 p q) k = ix2 p k :=
  funext fun a => Fin.ext (by match a with | ⟨0, _⟩ => rfl | ⟨1, _⟩ => rfl)
theorem ridx20 (p : Fin 100000) (q : Fin 64) (k : Fin 128) : ridx_main_v20 (ix2 p q) k = ix2 k q :=
  funext fun a => Fin.ext (by match a with | ⟨0, _⟩ => rfl | ⟨1, _⟩ => rfl)
theorem idx1718 (p : Fin 100000) (k : Fin 128) : idx_main_v17 (idx_main_v18 (ix2 p k)) = ix1 p :=
  funext fun a => Fin.ext (by match a with | ⟨0, _⟩ => rfl)
theorem lidx58 (p : Fin 100000) (q : Fin 40) (k : Fin 64) : lidx_main_v58 (ix2 p q) k = ix2 p k :=
  funext fun a => Fin.ext (by match a with | ⟨0, _⟩ => rfl | ⟨1, _⟩ => rfl)
theorem ridx58 (p : Fin 100000) (q : Fin 40) (k : Fin 64) : ridx_main_v58 (ix2 p q) k = ix2 k q :=
  funext fun a => Fin.ext (by match a with | ⟨0, _⟩ => rfl | ⟨1, _⟩ => rfl)
theorem idx5556 (p : Fin 100000) (k : Fin 64) : idx_main_v55 (idx_main_v56 (ix2 p k)) = ix1 p :=
  funext fun a => Fin.ext (by match a with | ⟨0, _⟩ => rfl)
theorem idx3132 (p : Fin 100000) (k : Fin 64) : idx_main_v31 (idx_main_v32 (ix2 p k)) = ix1 p :=
  funext fun a => Fin.ext (by match a with | ⟨0, _⟩ => rfl)
theorem idx3435 (p : Fin 100000) (k : Fin 64) : idx_main_v34 (idx_main_v35 (ix2 p k)) = ix1 k :=
  funext fun a => Fin.ext (by match a with | ⟨0, _⟩ => rfl)
theorem idx6970 (p : Fin 100000) (q : Fin 40) : idx_main_v69 (idx_main_v70 (ix2 p q)) = ix1 p :=
  funext fun a => Fin.ext (by match a with | ⟨0, _⟩ => rfl)
theorem idx7273 (p : Fin 100000) (q : Fin 40) : idx_main_v72 (idx_main_v73 (ix2 p q)) = ix1 q :=
  funext fun a => Fin.ext (by match a with | ⟨0, _⟩ => rfl)

/-! ## The three dense layers -/

/-- The last layer: `max (agg · norm + bias) 0`, the same expression on both sides. -/
theorem layer3_eq (x0 : (⟨S100000x128, .f32⟩ : BufTy).Contents (Elt Ideal)) (x1 x2 : (⟨S1600000, .i32⟩ : BufTy).Contents (Elt Ideal)) (x3 : (⟨S128x64, .f32⟩ : BufTy).Contents (Elt Ideal)) (x4 : (⟨S64, .f32⟩ : BufTy).Contents (Elt Ideal)) (x5 : (⟨S64x40, .f32⟩ : BufTy).Contents (Elt Ideal)) (x6 : (⟨S40, .f32⟩ : BufTy).Contents (Elt Ideal)) :
    val_main_v75 (F := Ideal) x0 x1 x2 x3 x4 x5 x6
      = Cert.KernelIdeal.Spec.G3 (val_main_v68 (F := Ideal) x0 x1 x2 x3 x4 x5) (Cert.KernelIdeal.Spec.col (Cert.KernelIdeal.Spec.nrm x2)) (Cert.KernelIdeal.Spec.row40 x6) := by
  funext i
  obtain ⟨p, q, rfl⟩ : ∃ (p : Fin 100000) (q : Fin 40), i = ix2 p q := ⟨i 0, i 1, eq_ix2 i⟩
  rw [Cert.KernelIdeal.Spec.G3_ix2]
  unfold Cert.KernelIdeal.Spec.layer3
  rw [val_main_v75_apply, val_main_v74_apply, val_main_v71_apply, val_main_v70_apply, val_main_v69_apply, val_main_v73_apply,
    val_main_v72_apply, val_main_call5_v0_apply, idx6970, idx7273, nrm_dst', Cert.KernelIdeal.Spec.col_apply, Cert.KernelIdeal.Spec.row40_apply]
  rfl

/-- The first layer: the reference scales row p of `x` by the normalisation before the product with the weights; the kernel
    scales the product. Equal where `x`, the weights and the normalisation are real. -/
theorem layer1_eq (x0 : (⟨S100000x128, .f32⟩ : BufTy).Contents (Elt Ideal)) (x1 : (⟨S1600000, .i32⟩ : BufTy).Contents (Elt Ideal)) (x3 : (⟨S128x64, .f32⟩ : BufTy).Contents (Elt Ideal))
    (h0 : ∀ i, IsReal (x0 i)) (h3 : ∀ i, IsReal (x3 i)) (hn : ∀ i, IsReal (Cert.KernelIdeal.Spec.nrm x1 i)) :
    val_main_v20 (F := Ideal) x0 x1 x3 = Cert.KernelIdeal.Spec.G1 x0 (Cert.KernelIdeal.Spec.col (Cert.KernelIdeal.Spec.nrm x1)) x3 := by
  funext i
  obtain ⟨p, q, rfl⟩ : ∃ (p : Fin 100000) (q : Fin 64), i = ix2 p q := ⟨i 0, i 1, eq_ix2 i⟩
  rw [Cert.KernelIdeal.Spec.G1_ix2]
  unfold Cert.KernelIdeal.Spec.layer1
  rw [val_main_v20_apply, Cert.KernelIdeal.Spec.col_apply]
  refine Eq.trans (Finset.sum_congr rfl fun k _ => ?_)
    (dot_scale (fun k : Fin 128 => x0 (ix2 p k)) (fun k : Fin 128 => x3 (ix2 k q)) (Cert.KernelIdeal.Spec.nrm x1 (ix1 p))
      (fun k => h0 _) (fun k => h3 _) (hn _)).symm
  rw [lidx20, ridx20, val_main_v19_apply, val_main_v18_apply, val_main_v17_apply, idx1718, nrm_src]
  rfl

/-- The second layer: the reference scales row p of `max (agg · norm_dst + bias) 0` by the source normalisation before the
    product with the weights; the kernel scales the product. Equal where the aggregate, the bias, the weights and the two
    normalisations are real. -/
theorem layer2_eq (x0 : (⟨S100000x128, .f32⟩ : BufTy).Contents (Elt Ideal)) (x1 x2 : (⟨S1600000, .i32⟩ : BufTy).Contents (Elt Ideal)) (x3 : (⟨S128x64, .f32⟩ : BufTy).Contents (Elt Ideal)) (x4 : (⟨S64, .f32⟩ : BufTy).Contents (Elt Ideal)) (x5 : (⟨S64x40, .f32⟩ : BufTy).Contents (Elt Ideal))
    (ha : ∀ i, IsReal (val_main_v30 (F := Ideal) x0 x1 x2 x3 i)) (h4 : ∀ i, IsReal (x4 i)) (h5 : ∀ i, IsReal (x5 i))
    (hn1 : ∀ i, IsReal (Cert.KernelIdeal.Spec.nrm x1 i)) (hn2 : ∀ i, IsReal (Cert.KernelIdeal.Spec.nrm x2 i)) :
    val_main_v58 (F := Ideal) x0 x1 x2 x3 x4 x5
      = Cert.KernelIdeal.Spec.G2 (val_main_v30 (F := Ideal) x0 x1 x2 x3) (Cert.KernelIdeal.Spec.norms2 x1 x2) (Cert.KernelIdeal.Spec.row64 x4) x5 := by
  funext i
  obtain ⟨p, q, rfl⟩ : ∃ (p : Fin 100000) (q : Fin 40), i = ix2 p q := ⟨i 0, i 1, eq_ix2 i⟩
  rw [Cert.KernelIdeal.Spec.G2_ix2]
  unfold Cert.KernelIdeal.Spec.layer2
  rw [val_main_v58_apply, Cert.KernelIdeal.Spec.norms2_apply0, Cert.KernelIdeal.Spec.norms2_apply1]
  refine Eq.trans (Finset.sum_congr rfl fun k _ => ?_)
    (dot_scale
      (fun k : Fin 64 => max (val_main_v30 (F := Ideal) x0 x1 x2 x3 (ix2 p k) * Cert.KernelIdeal.Spec.nrm x2 (ix1 p)
        + Cert.KernelIdeal.Spec.row64 x4 (ix2 (0 : Fin 1) k)) (Ideal.ofBits .f32 0x00000000#32))
      (fun k : Fin 64 => x5 (ix2 k q)) (Cert.KernelIdeal.Spec.nrm x1 (ix1 p))
      (fun k => IsReal.max _ _ (IsReal.add _ _ (IsReal.mul _ _ (ha _) (hn2 _))
        (by rw [Cert.KernelIdeal.Spec.row64_apply]; exact h4 _)) isReal_ofBits_zero)
      (fun k => h5 _) (hn1 _)).symm
  rw [lidx58, ridx58, val_main_v57_apply, val_main_v56_apply, val_main_v55_apply, idx5556, nrm_src', val_main_v37_apply,
    val_main_v36_apply, val_main_v33_apply, val_main_v32_apply, val_main_v31_apply, idx3132, nrm_dst, val_main_v35_apply,
    val_main_v34_apply, idx3435, val_main_call2_v0_apply, Cert.KernelIdeal.Spec.row64_apply]
  rfl

/-! ## The reference's result -/

/-- The reference's result is the specification's composition of the three layers and the two aggregations, where the
    float arguments are real. -/
theorem ref_value (x0 : (⟨S100000x128, .f32⟩ : BufTy).Contents (Elt Ideal)) (x1 x2 : (⟨S1600000, .i32⟩ : BufTy).Contents (Elt Ideal)) (x3 : (⟨S128x64, .f32⟩ : BufTy).Contents (Elt Ideal)) (x4 : (⟨S64, .f32⟩ : BufTy).Contents (Elt Ideal)) (x5 : (⟨S64x40, .f32⟩ : BufTy).Contents (Elt Ideal)) (x6 : (⟨S40, .f32⟩ : BufTy).Contents (Elt Ideal))
    (h0 : ∀ i, IsReal (x0 i)) (h3 : ∀ i, IsReal (x3 i)) (h4 : ∀ i, IsReal (x4 i)) (h5 : ∀ i, IsReal (x5 i)) :
    val_main_v75 (F := Ideal) x0 x1 x2 x3 x4 x5 x6
      = Cert.KernelIdeal.Spec.G3
          (Cert.KernelIdeal.Spec.aggr40
            (Cert.KernelIdeal.Spec.G2
              (Cert.KernelIdeal.Spec.aggr64 (Cert.KernelIdeal.Spec.G1 x0 (Cert.KernelIdeal.Spec.col (Cert.KernelIdeal.Spec.nrm x1)) x3) x1 x2)
              (Cert.KernelIdeal.Spec.norms2 x1 x2) (Cert.KernelIdeal.Spec.row64 x4) x5) x1 x2)
          (Cert.KernelIdeal.Spec.col (Cert.KernelIdeal.Spec.nrm x2)) (Cert.KernelIdeal.Spec.row40 x6) := by
  have e1 := layer1_eq x0 x1 x3 h0 h3 (Cert.KernelIdeal.Spec.isReal_nrm x1)
  have ha : ∀ i, IsReal (val_main_v30 (F := Ideal) x0 x1 x2 x3 i) := fun i => by
    rw [aggr1, e1]
    exact Cert.KernelIdeal.Spec.isReal_aggr64 _ _ _
      (Cert.KernelIdeal.Spec.isReal_G1 _ _ _ h0 (Cert.KernelIdeal.Spec.isReal_col _ (Cert.KernelIdeal.Spec.isReal_nrm x1)) h3) i
  rw [layer3_eq, aggr2, layer2_eq x0 x1 x2 x3 x4 x5 ha h4 h5 (Cert.KernelIdeal.Spec.isReal_nrm x1) (Cert.KernelIdeal.Spec.isReal_nrm x2),
    aggr1, e1]

end Cert.ReferenceIdeal.RefValue

end
-- ==== Proof.KernelRun.lean ====
/-
  The idealized kernel's run with its result kept. Every weakly fair execution of the program — five stretches of host
  operations, the first pallas_call, a stretch, the second call, a stretch, the third call — terminates without a fault;
  the buffer contents at each boundary are a fold from the launch memory (a stretch applies its operations, a call leaves
  in each of its arrays what its write-backs leave), and at the end EVERY unscoped buffer holds the last boundary's
  contents. The frame claim keeps of this only the seven argument arrays; here the result array is kept as well: it holds
  the last boundary's contents at the third call's output.
-/
import proofs.«103134_j59433757442077_2_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the result array ends at the last boundary's contents, the seven argument arrays as launched. -/
theorem run_result : θ_run defs (onTc (τ := τ) (main (F := F))) ⟨m, fun _ => 0, ρ⟩ (fun r => ∀ c : Dev nD,
      r.2.mem ((c.tc : Thread nD τ).loc main_v46) = W10 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v46 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.RunResult

end
-- ==== Proof.HostStretch.lean ====
/-
  The idealized kernel's buffers at each call's entry, as functions of the argument arrays. The host operations before the
  first call build the two degree normalisations (a count of the list entries naming each node, its power -1/2 where positive)
  and keep them as columns; between calls the host gathers rows of the previous call's result along the edges and accumulates
  them per destination node; a bias becomes a row. Each stretch of host operations is read once, over arbitrary operand
  contents, and the boundaries' contents are then chained from the launch memory.
-/
import proofs.«103134_j59433757442077_2_alg».proof.Proof.Gen.KernelIdeal.Frame
import proofs.«103134_j59433757442077_2_alg».proof.Proof.Layout
import Idealize.ShloMosaic.Lib.StableHlo.Run

set_option maxRecDepth 16384

noncomputable section

namespace Cert.KernelIdeal.HostVals

open Cert.KernelIdeal Cert.KernelIdeal.Gen Idealize.ShloMosaic Idealize.ShloMosaic.TcCoe Idealize.SL.Sem Idealize.ShloMosaic.StableHlo

/-! ## Each stretch over arbitrary operand contents -/

/-- The select that keeps the power where the count is positive and puts a constant elsewhere (first list). -/
theorem select_src (W : Valuation τ sig (Elt Ideal)) (c8 : IVec S100000 1) (p10 : FVec Ideal S100000 .f32) (z : FVec Ideal S_ .f32)
    (h8 : W (Proc.devRef .tc main_v8) = c8) (h10 : W (Proc.devRef .tc main_v10) = p10) (h4 : W (Proc.devRef .tc main_cst_4) = z) :
    StableHlo.after (hostOps0_1 (F := Ideal)) W (Proc.devRef .tc main_v11) = select c8 p10 (broadcastInDim S100000 ![] bcast_S_S100000 (id z)) := by
  dsimp only [hostOps0_1]
  after_results
  rw [h8, h10, h4]
  rfl

/-- The same select for the second list. -/
theorem select_dst (W : Valuation τ sig (Elt Ideal)) (c13 : IVec S100000 1) (p15 : FVec Ideal S100000 .f32) (z : FVec Ideal S_ .f32)
    (h13 : W (Proc.devRef .tc main_v13) = c13) (h15 : W (Proc.devRef .tc main_v15) = p15) (h7 : W (Proc.devRef .tc main_cst_7) = z) :
    StableHlo.after (hostOps0_3 (F := Ideal)) W (Proc.devRef .tc main_v16) = select c13 p15 (broadcastInDim S100000 ![] bcast_S_S100000 (id z)) := by
  dsimp only [hostOps0_3]
  after_results
  rw [h13, h15, h7]
  rfl

/-- The comparison, the power and the constant of the second list's normalisation, from its count. -/
theorem parts_dst (W : Valuation τ sig (Elt Ideal)) (d : FVec Ideal S100000 .f32) (h6 : W (Proc.devRef .tc main_v6) = d) :
    StableHlo.after (hostOps0_2 (F := Ideal)) W (Proc.devRef .tc main_v13)
        = cmpf .ogt d (broadcastInDim S100000 ![] bcast_S_S100000 (constant (F := Ideal) S_ .f32 0x00000000#32))
    ∧ StableHlo.after (hostOps0_2 (F := Ideal)) W (Proc.devRef .tc main_v15)
        = Host.powf d (broadcastInDim S100000 ![] bcast_S_S100000 (constant (F := Ideal) S_ .f32 0xBF000000#32))
    ∧ StableHlo.after (hostOps0_2 (F := Ideal)) W (Proc.devRef .tc main_cst_7) = constant (F := Ideal) S_ .f32 0x00000000#32 := by
  dsimp only [hostOps0_2]
  refine ⟨?_, ?_, ?_⟩
  · after_results; rw [h6]
  · after_results; rw [h6]
  · after_results

/-- The two normalisations become columns, and the pair of columns. -/
theorem columns (W : Valuation τ sig (Elt Ideal)) (n1 n2 : FVec Ideal S100000 .f32)
    (h11 : W (Proc.devRef .tc main_v11) = n1) (h16 : W (Proc.devRef .tc main_v16) = n2) :
    StableHlo.after (hostOps0_4 (F := Ideal)) W (Proc.devRef .tc main_v17) = shapeCast S100000x1 n1 shapeCasts_S100000_S100000x1
    ∧ StableHlo.after (hostOps0_4 (F := Ideal)) W (Proc.devRef .tc main_v18) = shapeCast S100000x1 n2 shapeCasts_S100000_S100000x1
    ∧ StableHlo.after (hostOps0_4 (F := Ideal)) W (Proc.devRef .tc main_v19)
        = concatenate S100000x2 1 [⟨S100000x1, shapeCast S100000x1 n1 shapeCasts_S100000_S100000x1⟩,
            ⟨S100000x1, shapeCast S100000x1 n2 shapeCasts_S100000_S100000x1⟩] concatenates_S100000x1_S100000x1_S100000x2_d1 := by
  dsimp only [hostOps0_4]
  refine ⟨?_, ?_, ?_⟩
  · after_results; rw [h11]; rfl
  · after_results; rw [h16]; rfl
  · after_results; rw [h11, h16]; rfl

set_option maxHeartbeats 2000000 in
/-- Between the first and the second call: rows of `h` gathered along the edges and accumulated per destination; the bias as
    a row. -/
theorem stretch1 (W : Valuation τ sig (Elt Ideal)) (h : FVec Ideal S100000x64 .bf16) (src dst : IVec S1600000 32) (b : FVec Ideal S64 .f32)
    (h20 : W (Proc.devRef .tc main_v20) = h) (h1 : W (Proc.devRef .tc main_arg1) = src) (h2 : W (Proc.devRef .tc main_arg2) = dst) (h4 : W (Proc.devRef .tc main_arg4) = b) :
    StableHlo.after (hostOps1 (F := Ideal)) W (Proc.devRef .tc main_v31) = Spec.aggr64 h src dst
    ∧ StableHlo.after (hostOps1 (F := Ideal)) W (Proc.devRef .tc main_v32) = shapeCast S1x64 b shapeCasts_S64_S1x64 := by
  dsimp only [hostOps1]
  refine ⟨?_, ?_⟩
  · after_results; rw [h20, h1, h2]; rfl
  · after_results; rw [h4]; rfl

set_option maxHeartbeats 2000000 in
/-- Between the second and the third call: the same with 40 columns. -/
theorem stretch2 (W : Valuation τ sig (Elt Ideal)) (h : FVec Ideal S100000x40 .bf16) (src dst : IVec S1600000 32) (b : FVec Ideal S40 .f32)
    (h33 : W (Proc.devRef .tc main_v33) = h) (h1 : W (Proc.devRef .tc main_arg1) = src) (h2 : W (Proc.devRef .tc main_arg2) = dst) (h6 : W (Proc.devRef .tc main_arg6) = b) :
    StableHlo.after (hostOps2 (F := Ideal)) W (Proc.devRef .tc main_v44) = Spec.aggr40 h src dst
    ∧ StableHlo.after (hostOps2 (F := Ideal)) W (Proc.devRef .tc main_v45) = shapeCast S1x40 b shapeCasts_S40_S1x40 := by
  dsimp only [hostOps2]
  refine ⟨?_, ?_⟩
  · after_results; rw [h33, h1, h2]; rfl
  · after_results; rw [h6]; rfl

/-! ## What a stretch leaves alone: a buffer none of its operations writes keeps its contents -/

set_option maxHeartbeats 2000000 in
theorem keep_s0_1_v6 (W : Valuation τ sig (Elt Ideal)) :
    StableHlo.after (hostOps0_1 (F := Ideal)) W (Proc.devRef .tc main_v6) = W (Proc.devRef .tc main_v6) := by
  dsimp only [hostOps0_1]
  after_results
set_option maxHeartbeats 2000000 in
theorem keep_s0_2_v11 (W : Valuation τ sig (Elt Ideal)) :
    StableHlo.after (hostOps0_2 (F := Ideal)) W (Proc.devRef .tc main_v11) = W (Proc.devRef .tc main_v11) := by
  dsimp only [hostOps0_2]
  after_results
set_option maxHeartbeats 2000000 in
theorem keep_s0_3_v11 (W : Valuation τ sig (Elt Ideal)) :
    StableHlo.after (hostOps0_3 (F := Ideal)) W (Proc.devRef .tc main_v11) = W (Proc.devRef .tc main_v11) := by
  dsimp only [hostOps0_3]
  after_results
set_option maxHeartbeats 2000000 in
theorem keep_s1_v19 (W : Valuation τ sig (Elt Ideal)) :
    StableHlo.after (hostOps1 (F := Ideal)) W (Proc.devRef .tc main_v19) = W (Proc.devRef .tc main_v19) := by
  dsimp only [hostOps1]
  after_results
set_option maxHeartbeats 2000000 in
theorem keep_s1_v18 (W : Valuation τ sig (Elt Ideal)) :
    StableHlo.after (hostOps1 (F := Ideal)) W (Proc.devRef .tc main_v18) = W (Proc.devRef .tc main_v18) := by
  dsimp only [hostOps1]
  after_results
set_option maxHeartbeats 2000000 in
theorem keep_s1_arg1 (W : Valuation τ sig (Elt Ideal)) :
    StableHlo.after (hostOps1 (F := Ideal)) W (Proc.devRef .tc main_arg1) = W (Proc.devRef .tc main_arg1) := by
  dsimp only [hostOps1]
  after_results
set_option maxHeartbeats 2000000 in
theorem keep_s1_arg2 (W : Valuation τ sig (Elt Ideal)) :
    StableHlo.after (hostOps1 (F := Ideal)) W (Proc.devRef .tc main_arg2) = W (Proc.devRef .tc main_arg2) := by
  dsimp only [hostOps1]
  after_results
set_option maxHeartbeats 2000000 in
theorem keep_s1_arg5 (W : Valuation τ sig (Elt Ideal)) :
    StableHlo.after (hostOps1 (F := Ideal)) W (Proc.devRef .tc main_arg5) = W (Proc.devRef .tc main_arg5) := by
  dsimp only [hostOps1]
  after_results
set_option maxHeartbeats 2000000 in
theorem keep_s1_arg6 (W : Valuation τ sig (Elt Ideal)) :
    StableHlo.after (hostOps1 (F := Ideal)) W (Proc.devRef .tc main_arg6) = W (Proc.devRef .tc main_arg6) := by
  dsimp only [hostOps1]
  after_results
set_option maxHeartbeats 2000000 in
theorem keep_s2_v18 (W : Valuation τ sig (Elt Ideal)) :
    StableHlo.after (hostOps2 (F := Ideal)) W (Proc.devRef .tc main_v18) = W (Proc.devRef .tc main_v18) := by
  dsimp only [hostOps2]
  after_results

end Cert.KernelIdeal.HostVals

end
-- ==== Proof.Block0.lean ====
/-
  The first kernel's result array, as one function of the arrays it reads.

  The kernel walks 25 row blocks of 4000 rows. At each block it multiplies the block of the left operand (4000 x 128) with
  the whole weight (128 x 64), scales row r of the product by the block of the scaling column at row r, and stores the
  4000 x 64 result block. Read at an index (r, q) of a block the stored value is
      (sum over k of x(r, k) * w(k, q)) * n(r, 0)
  of the block contents (the roundings to the narrower float type are the identity on extended reals; the product into a
  zero accumulator is the plain sum). Block t of a row-blocked array is its rows 4000 t ... 4000 t + 3999, so what point t
  writes back is block t of the whole-array function `Spec.G1`; the 25 blocks cover the 100000 rows (row p lies in block
  p / 4000), hence the array ends at `Spec.G1` of the arrays read.
-/
import proofs.«103134_j59433757442077_2_alg».proof.Proof.Gen.KernelIdeal.Frame
import proofs.«103134_j59433757442077_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open scoped BigOperators

/-- The zero offset of a rank-2 rectangle, as a constant function. -/
theorem zero_off2 : (![0, 0] : Fin 2 → Nat) = fun _ => 0 := funext fun a => by fin_cases a <;> rfl

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first product's operand indices at output index (r, q) and contraction coordinate k: (r, k) on the left, -/
theorem dot128_lhs (r : Fin 4000) (q : Fin 64) (k : Fin 128) :
    dot_S4000x128_S128x64_S4000x64_1_0_0_1_n_n.lhsIdx (ix2 r q)
      ((contrEquiv1 dot_S4000x128_S128x64_S4000x64_1_0_0_1_n_n 128 rfl rfl).symm k) = ix2 r k := by
  funext a
  apply Fin.ext
  match a with
  | ⟨0, _⟩ =>
    simp [DotDims.lhsIdx, dot_S4000x128_S128x64_S4000x64_1_0_0_1_n_n]
    rfl
  | ⟨1, _⟩ =>
    exact (DotDims.lhsIdx_val_of_single dot_S4000x128_S128x64_S4000x64_1_0_0_1_n_n (cl := 1) rfl (ix2 r q) _).trans
      (contrEquiv1_symm_val dot_S4000x128_S128x64_S4000x64_1_0_0_1_n_n 128 rfl rfl k)

/-- and (k, q) on the right. -/
theorem dot128_rhs (r : Fin 4000) (q : Fin 64) (k : Fin 128) :
    dot_S4000x128_S128x64_S4000x64_1_0_0_1_n_n.rhsIdx (ix2 r q)
      ((contrEquiv1 dot_S4000x128_S128x64_S4000x64_1_0_0_1_n_n 128 rfl rfl).symm k) = ix2 k q := by
  funext a
  apply Fin.ext
  match a with
  | ⟨0, _⟩ =>
    exact (DotDims.rhsIdx_val_of_single dot_S4000x128_S128x64_S4000x64_1_0_0_1_n_n (cr := 0) rfl (ix2 r q) _).trans
      (contrEquiv1_symm_val dot_S4000x128_S128x64_S4000x64_1_0_0_1_n_n 128 rfl rfl k)
  | ⟨1, _⟩ =>
    simp [DotDims.rhsIdx, dot_S4000x128_S128x64_S4000x64_1_0_0_1_n_n]
    rfl

/-- The first kernel's payload at an index of its block: row r of the left block against column q of the weight,
    scaled by the column block's entry of row r (the roundings to bf16 are the identity on extended reals). -/
theorem pay0_apply (x0 : FVec Ideal S4000x128 .f32) (x2 : FVec Ideal S128x64 .f32) (x1 : FVec Ideal S4000x1 .f32)
    (r : Fin 4000) (q : Fin 64) :
    k0_pay1 (F := Ideal) x0 x2 x1 (ix2 r q) = (∑ k : Fin 128, x0 (ix2 r k) * x2 (ix2 k q)) * x1 (ix2 r (0 : Fin 1)) := by
  unfold k0_pay1
  show (matmul dot_S4000x128_S128x64_S4000x64_1_0_0_1_n_n none (truncf FTy.bf16 x0 bitsLt_bf16_f32)
          (truncf FTy.bf16 x2 bitsLt_bf16_f32) (constant S4000x64 FTy.f32 0#32)) (ix2 r q)
      * broadcastTo S4000x64 (shapeCast S4000x1 x1 shapeCasts_S4000x1_S4000x1) broadcasts_S4000x1_S4000x64 (ix2 r q) = _
  rw [shapeCast_self]
  refine congrArg₂ (· * ·) ?_ (broadcastTo_a1_ab_apply x1 _ r q)
  refine (Ideal.matmul_constant_zero_apply dot_S4000x128_S128x64_S4000x64_1_0_0_1_n_n none _ _ (ix2 r q)).trans ?_
  refine (Equiv.sum_comp (contrEquiv1 dot_S4000x128_S128x64_S4000x64_1_0_0_1_n_n 128 rfl rfl).symm _).symm.trans ?_
  refine Finset.sum_congr rfl fun k _ => ?_
  rw [dot128_lhs, dot128_rhs]
  rfl

section Region0

variable (V : (c : Dev nD) → (b : Ref sig .tc) → Buf (Elt Ideal) ((c : Thread nD τ).loc b))

/-- The printed index maps of the first kernel's windows, decided once over the grid: the row-blocked windows are at
    block (t, 0), the weight at block (0, 0). -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A grid point's row block lies inside the 100000 rows. -/
theorem row_lt0 (t : Fin cfg0.N) (r : Fin 4000) : 4000 * t.val + r.val < 100000 := by
  have ht : t.val < 25 := lt_of_lt_of_eq t.isLt N_0
  have hr := r.isLt
  omega

/-- Block t of the left operand is its rows 4000 t … 4000 t + 3999. -/
theorem blk0_x (c : Dev nD) (t : Fin cfg0.N) (r : Fin 4000) (k : Fin 128) :
    (iblk0 (F := Ideal) V c 0 t : FVec Ideal S4000x128 .f32) (ix2 r k)
      = (V c main_arg0 : S100000x128.Idx → EReal) (ix2 (⟨4000 * t.val + r.val, row_lt0 t r⟩ : Fin 100000) k) := by
  obtain ⟨e0, e1, -⟩ := index_facts0 t
  show V c main_arg0 (((cfg0.win 0).blk t).view.emb (ix2 r k)) = V c main_arg0 _
  refine congrArg (V c main_arg0) ?_
  funext a
  apply Fin.ext
  match a with
  | ⟨0, _⟩ => show win0_0.index t (0 : Fin 2) * 4000 + 1 * r.val = 4000 * t.val + r.val; omega
  | ⟨1, _⟩ => show win0_0.index t (1 : Fin 2) * 128 + 1 * k.val = k.val; omega

/-- Block t of the scaling column is its rows 4000 t … 4000 t + 3999. -/
theorem blk0_n (c : Dev nD) (t : Fin cfg0.N) (r : Fin 4000) :
    (iblk0 (F := Ideal) V c 1 t : FVec Ideal S4000x1 .f32) (ix2 r (0 : Fin 1))
      = (V c main_v17 : S100000x1.Idx → EReal) (ix2 (⟨4000 * t.val + r.val, row_lt0 t r⟩ : Fin 100000) (0 : Fin 1)) := by
  obtain ⟨-, -, e2, e3, -⟩ := index_facts0 t
  show V c main_v17 (((cfg0.win 1).blk t).view.emb (ix2 r (0 : Fin 1))) = V c main_v17 _
  refine congrArg (V c main_v17) ?_
  funext a
  apply Fin.ext
  match a with
  | ⟨0, _⟩ => show win0_1.index t (0 : Fin 2) * 4000 + 1 * r.val = 4000 * t.val + r.val; omega
  | ⟨1, _⟩ => show win0_1.index t (1 : Fin 2) * 1 + 1 * (0 : Fin 1).val = (0 : Fin 1).val; omega

/-- The weight's one block is the weight. -/
theorem blk0_w (c : Dev nD) (t : Fin cfg0.N) (k : Fin 128) (q : Fin 64) :
    (iblk0 (F := Ideal) V c 2 t : FVec Ideal S128x64 .f32) (ix2 k q)
      = (V c main_arg3 : S128x64.Idx → EReal) (ix2 k q) := by
  obtain ⟨-, -, -, -, e4, e5, -⟩ := index_facts0 t
  show V c main_arg3 (((cfg0.win 2).blk t).view.emb (ix2 k q)) = V c main_arg3 _
  refine congrArg (V c main_arg3) ?_
  funext a
  apply Fin.ext
  match a with
  | ⟨0, _⟩ => show win0_2.index t (0 : Fin 2) * 128 + 1 * k.val = k.val; omega
  | ⟨1, _⟩ => show win0_2.index t (1 : Fin 2) * 64 + 1 * q.val = q.val; omega

/-- Entry (r, q) of the result's block t is entry (4000 t + r, q) of the result. -/
theorem blk0_out (t : Fin cfg0.N) (r : Fin 4000) (q : Fin 64) :
    ((cfg0.win 3).blk t).view.emb (ix2 r q) = (ix2 (⟨4000 * t.val + r.val, row_lt0 t r⟩ : Fin 100000) q : S100000x64.Idx) := by
  obtain ⟨-, -, -, -, -, -, e6, e7⟩ := index_facts0 t
  funext a
  apply Fin.ext
  match a with
  | ⟨0, _⟩ => show win0_3.index t (0 : Fin 2) * 4000 + 1 * r.val = 4000 * t.val + r.val; omega
  | ⟨1, _⟩ => show win0_3.index t (1 : Fin 2) * 64 + 1 * q.val = q.val; omega

/-- What point t writes back is block t of the first layer's whole-array function. -/
theorem flushed0 (c : Dev nD) (t : Fin cfg0.N) :
    (dat0 (F := Ideal) V c).flushed 3 t
      = ((cfg0.win 3).blk t).view.read (Elt Ideal) (Spec.G1 (V c main_arg0) (V c main_v17) (V c main_arg3)) := by
  show (cfg0.win 3).cut (grid0.coords t) ((dat0 (F := Ideal) V c).after 3 t) = _
  rw [after0_3]
  unfold out0_3
  rw [View.canon_unit_zero zero_off2]
  simp only [View.ld_unit_zero (S := S4000x128) zero_off2, View.ld_unit_zero (S := S128x64) zero_off2,
    View.ld_unit_zero (S := S4000x1) zero_off2]
  funext j
  obtain ⟨r, q, rfl⟩ : ∃ (r : Fin 4000) (q : Fin 64), j = ix2 r q := ⟨j 0, j 1, eq_ix2 j⟩
  show k0_pay1 (F := Ideal) (iblk0 V c 0 t) (iblk0 V c 2 t) (iblk0 V c 1 t) (ix2 r q)
    = Spec.G1 (V c main_arg0) (V c main_v17) (V c main_arg3) (((cfg0.win 3).blk t).view.emb (ix2 r q))
  rw [blk0_out t r q, Spec.G1_ix2]
  refine (pay0_apply (iblk0 V c 0 t) (iblk0 V c 2 t) (iblk0 V c 1 t) r q).trans ?_
  unfold Spec.layer1
  rw [blk0_n V c t r]
  refine congrArg (· * _) (Finset.sum_congr rfl fun k _ => ?_)
  rw [blk0_x V c t r k, blk0_w V c t k q]

/-- An index of the result array is in point t's block iff each coordinate is in the block's range on its axis. -/
theorem mem_blk0 (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v20).slice (win0_3.rect t)).set ↔ _
  rw [View.set_slice_whole, Rect.mem_set_unit]
  exact Iff.rfl

/-- Every index of the result array lies in the block of the point its row selects: row p is in block p / 4000. -/
theorem cover0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 25 := N_0
  have ht : (i 0).val / 4000 < cfg0.N := by show (i 0).val / 4000 < grid0.N; omega
  refine ⟨⟨(i 0).val / 4000, ht⟩, flush0_3 _, ?_⟩
  rw [mem_blk0]
  obtain ⟨-, -, -, -, -, -, e6, e7⟩ := index_facts0 ⟨(i 0).val / 4000, ht⟩
  have e6' : win0_3.index ⟨(i 0).val / 4000, ht⟩ (0 : Fin 2) = (i 0).val / 4000 := e6
  intro a
  match a with
  | ⟨0, _⟩ =>
    show win0_3.index ⟨(i 0).val / 4000, ht⟩ (0 : Fin 2) * 4000 ≤ (i 0).val
      ∧ (i 0).val < win0_3.index ⟨(i 0).val / 4000, ht⟩ (0 : Fin 2) * 4000 + 4000
    omega
  | ⟨1, _⟩ =>
    show win0_3.index ⟨(i 0).val / 4000, ht⟩ (1 : Fin 2) * 64 ≤ (i 1).val
      ∧ (i 1).val < win0_3.index ⟨(i 0).val / 4000, ht⟩ (1 : Fin 2) * 64 + 64
    omega

end Region0

/-- The first kernel's result array after its run is the first layer's whole-array function of the arrays it read. -/
theorem arr0 (V : (c : Dev nD) → (b : Ref sig .tc) → Buf (Elt Ideal) ((c : Thread nD τ).loc b)) (c : Dev nD) :
    (dat0 (F := Ideal) V c).arrAt 3 cfg0.N = Spec.G1 (V c main_arg0) (V c main_v17) (V c main_arg3) :=
  (dat0 (F := Ideal) V c).arrAt_eq_of_cover 3 (Spec.G1 (V c main_arg0) (V c main_v17) (V c main_arg3))
    (fun t _ => flushed0 V c t) cover0

end Cert.KernelIdeal.Blocks
end
-- ==== Proof.Block1.lean ====
/-
  The second kernel's result array, as one function of the arrays it reads.

  The kernel walks 25 row blocks of 4000 rows. At each block it scales row r of the feature block (4000 x 64) by column 1
  of the block of the two scaling columns (4000 x 2), adds the bias row (1 x 64), takes the maximum with zero, multiplies
  the result with the whole weight (64 x 40), scales row r of the product by column 0 of the same 4000 x 2 block, and stores
  the 4000 x 40 result block. Read at an index (r, q) of a block the stored value is
      (sum over k of max (a(r, k) * n(r, 1) + b(0, k)) 0 * w(k, q)) * n(r, 0)
  of the block contents (the roundings to the narrower float type are the identity on extended reals; the product into a
  zero accumulator is the plain sum; the two column loads read columns 0 and 1 of the 4000 x 2 block). Block t of a
  row-blocked array is its rows 4000 t ... 4000 t + 3999, so what point t writes back is block t of the whole-array
  function `Spec.G2`; the 25 blocks cover the 100000 rows (row p lies in block p / 4000), hence the array ends at
  `Spec.G2` of the arrays read.
-/
import proofs.«103134_j59433757442077_2_alg».proof.Proof.Gen.KernelIdeal.Frame
import proofs.«103134_j59433757442077_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open scoped BigOperators

/-- The zero offset of a rank-2 rectangle, as a constant function. -/
private theorem zero_off : (![0, 0] : Fin 2 → Nat) = fun _ => 0 := funext fun a => by fin_cases a <;> rfl

/-- A column `[a, 1]` broadcast to `[a, b]` reads, at `(p, c)`, the column's entry of row `p`. -/
private theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The second product's operand indices at output index (r, q) and contraction coordinate k: (r, k) on the left, -/
theorem dot64_lhs (r : Fin 4000) (q : Fin 40) (k : Fin 64) :
    dot_S4000x64_S64x40_S4000x40_1_0_0_1_n_n.lhsIdx (ix2 r q)
      ((contrEquiv1 dot_S4000x64_S64x40_S4000x40_1_0_0_1_n_n 64 rfl rfl).symm k) = ix2 r k := by
  funext a
  apply Fin.ext
  match a with
  | ⟨0, _⟩ =>
    simp [DotDims.lhsIdx, dot_S4000x64_S64x40_S4000x40_1_0_0_1_n_n]
    rfl
  | ⟨1, _⟩ =>
    exact (DotDims.lhsIdx_val_of_single dot_S4000x64_S64x40_S4000x40_1_0_0_1_n_n (cl := 1) rfl (ix2 r q) _).trans
      (contrEquiv1_symm_val dot_S4000x64_S64x40_S4000x40_1_0_0_1_n_n 64 rfl rfl k)

/-- and (k, q) on the right. -/
theorem dot64_rhs (r : Fin 4000) (q : Fin 40) (k : Fin 64) :
    dot_S4000x64_S64x40_S4000x40_1_0_0_1_n_n.rhsIdx (ix2 r q)
      ((contrEquiv1 dot_S4000x64_S64x40_S4000x40_1_0_0_1_n_n 64 rfl rfl).symm k) = ix2 k q := by
  funext a
  apply Fin.ext
  match a with
  | ⟨0, _⟩ =>
    exact (DotDims.rhsIdx_val_of_single dot_S4000x64_S64x40_S4000x40_1_0_0_1_n_n (cr := 0) rfl (ix2 r q) _).trans
      (contrEquiv1_symm_val dot_S4000x64_S64x40_S4000x40_1_0_0_1_n_n 64 rfl rfl k)
  | ⟨1, _⟩ =>
    simp [DotDims.rhsIdx, dot_S4000x64_S64x40_S4000x40_1_0_0_1_n_n]
    rfl

/-- The load of column 0 of a 4000 x 2 block, read at row r. -/
theorem ld_col0 (X : Vec Ideal S4000x2 .f32) (r : Fin 4000) :
    View.ld X r1_1 (ix2 r (0 : Fin 1)) = X (ix2 r (0 : Fin 2)) := by
  show X (r1_1.emb (ix2 r (0 : Fin 1))) = X _
  refine congrArg X ?_
  funext a
  apply Fin.ext
  match a with
  | ⟨0, _⟩ => simp only [Rect.emb_apply, Rect.off_unit, Rect.stride_unit, Nat.one_mul]; exact Nat.zero_add _
  | ⟨1, _⟩ => simp only [Rect.emb_apply, Rect.off_unit, Rect.stride_unit, Nat.one_mul]; rfl

/-- The load of column 1 of a 4000 x 2 block, read at row r. -/
theorem ld_col1 (X : Vec Ideal S4000x2 .f32) (r : Fin 4000) :
    View.ld X r1_2 (ix2 r (0 : Fin 1)) = X (ix2 r (1 : Fin 2)) := by
  show X (r1_2.emb (ix2 r (0 : Fin 1))) = X _
  refine congrArg X ?_
  funext a
  apply Fin.ext
  match a with
  | ⟨0, _⟩ => simp only [Rect.emb_apply, Rect.off_unit, Rect.stride_unit, Nat.one_mul]; exact Nat.zero_add _
  | ⟨1, _⟩ => simp only [Rect.emb_apply, Rect.off_unit, Rect.stride_unit, Nat.one_mul]; rfl

/-- The second kernel's payload at an index of its block: row r of max(x * c1 + b, 0) against column q of the weight,
    scaled by the column c0 at row r (the roundings to bf16 are the identity on extended reals). -/
theorem pay1_apply (x0 : FVec Ideal S4000x64 .f32) (c0 c1 : FVec Ideal S4000x1 .f32) (b : FVec Ideal S1x64 .f32)
    (w : FVec Ideal S64x40 .f32) (r : Fin 4000) (q : Fin 40) :
    k1_pay1 (F := Ideal) x0 c0 c1 b w (ix2 r q)
      = (∑ k : Fin 64, max (x0 (ix2 r k) * c1 (ix2 r (0 : Fin 1)) + b (ix2 (0 : Fin 1) k)) (Ideal.ofBits .f32 0x00000000#32)
          * w (ix2 k q)) * c0 (ix2 r (0 : Fin 1)) := by
  unfold k1_pay1
  simp only [shapeCast_self]
  show (matmul dot_S4000x64_S64x40_S4000x40_1_0_0_1_n_n none
          (truncf FTy.bf16
            (maximumf
              (addf (mulf x0 (broadcastTo S4000x64 c1 broadcasts_S4000x1_S4000x64))
                (broadcastTo S4000x64 b broadcasts_S1x64_S4000x64))
              (broadcast S4000x64 (FloatOps.ofBits FTy.f32 0#32)))
            bitsLt_bf16_f32)
          (truncf FTy.bf16 w bitsLt_bf16_f32) (constant S4000x40 FTy.f32 0#32)) (ix2 r q)
      * broadcastTo S4000x40 c0 broadcasts_S4000x1_S4000x40 (ix2 r q) = _
  refine congrArg₂ (· * ·) ?_ (broadcastTo_col_apply c0 _ r q)
  refine (Ideal.matmul_constant_zero_apply dot_S4000x64_S64x40_S4000x40_1_0_0_1_n_n none _ _ (ix2 r q)).trans ?_
  refine (Equiv.sum_comp (contrEquiv1 dot_S4000x64_S64x40_S4000x40_1_0_0_1_n_n 64 rfl rfl).symm _).symm.trans ?_
  refine Finset.sum_congr rfl fun k _ => ?_
  rw [dot64_lhs, dot64_rhs]
  show max (x0 (ix2 r k) * broadcastTo S4000x64 c1 broadcasts_S4000x1_S4000x64 (ix2 r k)
        + broadcastTo S4000x64 b broadcasts_S1x64_S4000x64 (ix2 r k)) (Ideal.ofBits FTy.f32 0#32) * w (ix2 k q) = _
  rw [broadcastTo_col_apply c1 _ r k, broadcastTo_1b_ab_apply b _ r k]

/-- The same with the two scaling columns loaded from one 4000 x 2 block: column 1 scales the features, column 0 the product. -/
theorem pay1_blk (x0 : FVec Ideal S4000x64 .f32) (n2 : Vec Ideal S4000x2 .f32) (b : FVec Ideal S1x64 .f32)
    (w : FVec Ideal S64x40 .f32) (r : Fin 4000) (q : Fin 40) :
    k1_pay1 (F := Ideal) x0 (View.ld n2 r1_1) (View.ld n2 r1_2) b w (ix2 r q)
      = (∑ k : Fin 64, max (x0 (ix2 r k) * n2 (ix2 r (1 : Fin 2)) + b (ix2 (0 : Fin 1) k)) (Ideal.ofBits .f32 0x00000000#32)
          * w (ix2 k q)) * n2 (ix2 r (0 : Fin 2)) := by
  rw [pay1_apply, ld_col0, ld_col1]

section Region1

variable (V : (c : Dev nD) → (b : Ref sig .tc) → Buf (Elt Ideal) ((c : Thread nD τ).loc b))

/-- The printed index maps of the second kernel's windows, decided once over the grid: the row-blocked windows are at
    block (t, 0), the bias row and the weight at block (0, 0). -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- A grid point's row block lies inside the 100000 rows. -/
theorem row_lt1 (t : Fin cfg1.N) (r : Fin 4000) : 4000 * t.val + r.val < 100000 := by
  have ht : t.val < 25 := lt_of_lt_of_eq t.isLt N_1
  have hr := r.isLt
  omega

/-- Block t of the aggregated features is its rows 4000 t … 4000 t + 3999. -/
theorem blk1_a (c : Dev nD) (t : Fin cfg1.N) (r : Fin 4000) (k : Fin 64) :
    (iblk1 (F := Ideal) V c 0 t : FVec Ideal S4000x64 .f32) (ix2 r k)
      = (V c main_v31 : S100000x64.Idx → EReal) (ix2 (⟨4000 * t.val + r.val, row_lt1 t r⟩ : Fin 100000) k) := by
  obtain ⟨e0, e1, -⟩ := index_facts1 t
  show V c main_v31 (((cfg1.win 0).blk t).view.emb (ix2 r k)) = V c main_v31 _
  refine congrArg (V c main_v31) ?_
  funext a
  apply Fin.ext
  match a with
  | ⟨0, _⟩ => show win1_0.index t (0 : Fin 2) * 4000 + 1 * r.val = 4000 * t.val + r.val; omega
  | ⟨1, _⟩ => show win1_0.index t (1 : Fin 2) * 64 + 1 * k.val = k.val; omega

/-- Block t of the two scaling columns is their rows 4000 t … 4000 t + 3999. -/
theorem blk1_n (c : Dev nD) (t : Fin cfg1.N) (r : Fin 4000) (s : Fin 2) :
    (iblk1 (F := Ideal) V c 1 t : FVec Ideal S4000x2 .f32) (ix2 r s)
      = (V c main_v19 : S100000x2.Idx → EReal) (ix2 (⟨4000 * t.val + r.val, row_lt1 t r⟩ : Fin 100000) s) := by
  obtain ⟨-, -, e2, e3, -⟩ := index_facts1 t
  show V c main_v19 (((cfg1.win 1).blk t).view.emb (ix2 r s)) = V c main_v19 _
  refine congrArg (V c main_v19) ?_
  funext a
  apply Fin.ext
  match a with
  | ⟨0, _⟩ => show win1_1.index t (0 : Fin 2) * 4000 + 1 * r.val = 4000 * t.val + r.val; omega
  | ⟨1, _⟩ => show win1_1.index t (1 : Fin 2) * 2 + 1 * s.val = s.val; omega

/-- The bias row's one block is the bias row. -/
theorem blk1_b (c : Dev nD) (t : Fin cfg1.N) (k : Fin 64) :
    (iblk1 (F := Ideal) V c 2 t : FVec Ideal S1x64 .f32) (ix2 (0 : Fin 1) k)
      = (V c main_v32 : S1x64.Idx → EReal) (ix2 (0 : Fin 1) k) := by
  obtain ⟨-, -, -, -, e4, e5, -⟩ := index_facts1 t
  show V c main_v32 (((cfg1.win 2).blk t).view.emb (ix2 (0 : Fin 1) k)) = V c main_v32 _
  refine congrArg (V c main_v32) ?_
  funext a
  apply Fin.ext
  match a with
  | ⟨0, _⟩ => show win1_2.index t (0 : Fin 2) * 1 + 1 * (0 : Fin 1).val = (0 : Fin 1).val; omega
  | ⟨1, _⟩ => show win1_2.index t (1 : Fin 2) * 64 + 1 * k.val = k.val; omega

/-- The weight's one block is the weight. -/
theorem blk1_w (c : Dev nD) (t : Fin cfg1.N) (k : Fin 64) (q : Fin 40) :
    (iblk1 (F := Ideal) V c 3 t : FVec Ideal S64x40 .f32) (ix2 k q)
      = (V c main_arg5 : S64x40.Idx → EReal) (ix2 k q) := by
  obtain ⟨-, -, -, -, -, -, e6, e7, -⟩ := index_facts1 t
  show V c main_arg5 (((cfg1.win 3).blk t).view.emb (ix2 k q)) = V c main_arg5 _
  refine congrArg (V c main_arg5) ?_
  funext a
  apply Fin.ext
  match a with
  | ⟨0, _⟩ => show win1_3.index t (0 : Fin 2) * 64 + 1 * k.val = k.val; omega
  | ⟨1, _⟩ => show win1_3.index t (1 : Fin 2) * 40 + 1 * q.val = q.val; omega

/-- Entry (r, q) of the result's block t is entry (4000 t + r, q) of the result. -/
theorem blk1_out (t : Fin cfg1.N) (r : Fin 4000) (q : Fin 40) :
    ((cfg1.win 4).blk t).view.emb (ix2 r q) = (ix2 (⟨4000 * t.val + r.val, row_lt1 t r⟩ : Fin 100000) q : S100000x40.Idx) := by
  obtain ⟨-, -, -, -, -, -, -, -, e8, e9⟩ := index_facts1 t
  funext a
  apply Fin.ext
  match a with
  | ⟨0, _⟩ => show win1_4.index t (0 : Fin 2) * 4000 + 1 * r.val = 4000 * t.val + r.val; omega
  | ⟨1, _⟩ => show win1_4.index t (1 : Fin 2) * 40 + 1 * q.val = q.val; omega

/-- What point t writes back is block t of the second layer's whole-array function. -/
theorem flushed1 (c : Dev nD) (t : Fin cfg1.N) :
    (dat1 (F := Ideal) V c).flushed 4 t
      = ((cfg1.win 4).blk t).view.read (Elt Ideal)
          (Spec.G2 (V c main_v31) (V c main_v19) (V c main_v32) (V c main_arg5)) := by
  show (cfg1.win 4).cut (grid1.coords t) ((dat1 (F := Ideal) V c).after 4 t) = _
  rw [after1_4]
  unfold out1_4
  rw [View.canon_unit_zero zero_off]
  simp only [View.ld_unit_zero (S := S4000x64) zero_off, View.ld_unit_zero (S := S1x64) zero_off,
    View.ld_unit_zero (S := S64x40) zero_off]
  funext j
  obtain ⟨r, q, rfl⟩ : ∃ (r : Fin 4000) (q : Fin 40), j = ix2 r q := ⟨j 0, j 1, eq_ix2 j⟩
  show k1_pay1 (F := Ideal) (iblk1 V c 0 t) (View.ld (iblk1 V c 1 t) r1_1) (View.ld (iblk1 V c 1 t) r1_2)
      (iblk1 V c 2 t) (iblk1 V c 3 t) (ix2 r q)
    = Spec.G2 (V c main_v31) (V c main_v19) (V c main_v32) (V c main_arg5) (((cfg1.win 4).blk t).view.emb (ix2 r q))
  rw [blk1_out t r q, Spec.G2_ix2]
  refine (pay1_blk (iblk1 V c 0 t) (iblk1 V c 1 t) (iblk1 V c 2 t) (iblk1 V c 3 t) r q).trans ?_
  unfold Spec.layer2
  rw [blk1_n V c t r (0 : Fin 2), blk1_n V c t r (1 : Fin 2)]
  refine congrArg (· * _) (Finset.sum_congr rfl fun k _ => ?_)
  rw [blk1_a V c t r k, blk1_b V c t k, blk1_w V c t k q]

/-- An index of the result array is in point t's block iff each coordinate is in the block's range on its axis. -/
theorem mem_blk1 (t : Fin cfg1.N) (i : S100000x40.Idx) :
    i ∈ ((cfg1.win 4).blk t).view.set ↔ ∀ a : Fin 2, win1_4.index t a * S4000x40.size a ≤ (i a).val
      ∧ (i a).val < win1_4.index t a * S4000x40.size a + S4000x40.size a := by
  show i ∈ ((View.whole main_v33).slice (win1_4.rect t)).set ↔ _
  rw [View.set_slice_whole, Rect.mem_set_unit]
  exact Iff.rfl

/-- Every index of the result array lies in the block of the point its row selects: row p is in block p / 4000. -/
theorem cover1 (i : S100000x40.Idx) :
    ∃ t : Fin cfg1.N, (cfg1.win 4).flush t = true ∧ i ∈ ((cfg1.win 4).blk t).view.set := by
  have hi0 : (i 0).val < 100000 := (i 0).isLt
  have hi1 : (i 1).val < 40 := (i 1).isLt
  have hN : grid1.N = 25 := N_1
  have ht : (i 0).val / 4000 < cfg1.N := by show (i 0).val / 4000 < grid1.N; omega
  refine ⟨⟨(i 0).val / 4000, ht⟩, flush1_4 _, ?_⟩
  rw [mem_blk1]
  obtain ⟨-, -, -, -, -, -, -, -, e8, e9⟩ := index_facts1 ⟨(i 0).val / 4000, ht⟩
  have e8' : win1_4.index ⟨(i 0).val / 4000, ht⟩ (0 : Fin 2) = (i 0).val / 4000 := e8
  intro a
  match a with
  | ⟨0, _⟩ =>
    show win1_4.index ⟨(i 0).val / 4000, ht⟩ (0 : Fin 2) * 4000 ≤ (i 0).val
      ∧ (i 0).val < win1_4.index ⟨(i 0).val / 4000, ht⟩ (0 : Fin 2) * 4000 + 4000
    omega
  | ⟨1, _⟩ =>
    show win1_4.index ⟨(i 0).val / 4000, ht⟩ (1 : Fin 2) * 40 ≤ (i 1).val
      ∧ (i 1).val < win1_4.index ⟨(i 0).val / 4000, ht⟩ (1 : Fin 2) * 40 + 40
    omega

end Region1

/-- The second kernel's result array after its run is the second layer's whole-array function of the arrays it read. -/
theorem arr1 (V : (c : Dev nD) → (b : Ref sig .tc) → Buf (Elt Ideal) ((c : Thread nD τ).loc b)) (c : Dev nD) :
    (dat1 (F := Ideal) V c).arrAt 4 cfg1.N = Spec.G2 (V c main_v31) (V c main_v19) (V c main_v32) (V c main_arg5) :=
  (dat1 (F := Ideal) V c).arrAt_eq_of_cover 4 (Spec.G2 (V c main_v31) (V c main_v19) (V c main_v32) (V c main_arg5))
    (fun t _ => flushed1 V c t) cover1

end Cert.KernelIdeal.Blocks
end
-- ==== Proof.Block2.lean ====
import proofs.«103134_j59433757442077_2_alg».proof.Proof.Gen.KernelIdeal.Frame
import proofs.«103134_j59433757442077_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

/-- The origin of a rank-2 block, as the constant function 0. -/
private theorem origin2 : (![0, 0] : Fin 2 → Nat) = fun _ => 0 := funext fun a => by fin_cases a <;> rfl

/-- An `[a, 1]` array broadcast to `[a, b]` reads, at `(p, c)`, the operand's one column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The third kernel's payload at (r, q): max (x0[r,q] · x1[r,0] + x2[0,q]) 0. -/
theorem payload3_apply (x0 : FVec Ideal S4000x40 .f32) (x1 : FVec Ideal S4000x1 .f32) (x2 : FVec Ideal S1x40 .f32)
    (r : Fin 4000) (q : Fin 40) :
    k2_pay1 (F := Ideal) x0 x1 x2 (ix2 r q)
      = max (x0 (ix2 r q) * x1 (ix2 r (0 : Fin 1)) + x2 (ix2 (0 : Fin 1) q)) (Ideal.ofBits .f32 0x00000000#32) := by
  unfold k2_pay1
  show max ((shapeCast S4000x40 x0 _) (ix2 r q) * (broadcastTo S4000x40 (shapeCast S4000x1 x1 _) _) (ix2 r q)
      + (broadcastTo S4000x40 (shapeCast S1x40 x2 _) _) (ix2 r q)) (Ideal.ofBits .f32 0x00000000#32) = _
  rw [shapeCast_self, shapeCast_self, shapeCast_self]
  rw [broadcastTo_a1_ab_apply, broadcastTo_1b_ab_apply]

/-- The printed index maps of the third kernel, decided over its 25 grid points: the row-blocked windows sit at block
    row `t`, block column 0; the bias window at block (0, 0). -/
private theorem index_facts3 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- Entry (r, q) of block `t` of the [100000, 40] operand is its entry (4000·t + r, q). -/
private theorem blockA_apply (c : Dev nD) (t : Fin cfg2.N) (r : Fin 4000) (q : Fin 40) (p : Fin 100000)
    (hp : p.val = t.val * 4000 + r.val) :
    iblk2 (F := Ideal) V c 0 t (ix2 r q) = V c main_v44 (ix2 p q) := by
  obtain ⟨e00, e01, -⟩ := index_facts3 t
  show V c main_v44 (((cfg2.win 0).blk t).view.emb (ix2 r q)) = V c main_v44 (ix2 p q)
  refine congrArg (V c main_v44) (funext fun a => Fin.ext ?_)
  match a with
  | ⟨0, _⟩ => show win2_0.index t (0 : Fin 2) * 4000 + 1 * r.val = p.val; omega
  | ⟨1, _⟩ => show win2_0.index t (1 : Fin 2) * 40 + 1 * q.val = q.val; omega

/-- Entry (r, 0) of block `t` of the [100000, 1] column is its entry (4000·t + r, 0). -/
private theorem blockN_apply (c : Dev nD) (t : Fin cfg2.N) (r : Fin 4000) (p : Fin 100000)
    (hp : p.val = t.val * 4000 + r.val) :
    iblk2 (F := Ideal) V c 1 t (ix2 r (0 : Fin 1)) = V c main_v18 (ix2 p (0 : Fin 1)) := by
  obtain ⟨-, -, e10, e11, -⟩ := index_facts3 t
  show V c main_v18 (((cfg2.win 1).blk t).view.emb (ix2 r (0 : Fin 1))) = V c main_v18 (ix2 p (0 : Fin 1))
  refine congrArg (V c main_v18) (funext fun a => Fin.ext ?_)
  match a with
  | ⟨0, _⟩ => show win2_1.index t (0 : Fin 2) * 4000 + 1 * r.val = p.val; omega
  | ⟨1, _⟩ => show win2_1.index t (1 : Fin 2) * 1 + 1 * 0 = 0; omega

/-- The [1, 40] row is its own one block at every point. -/
private theorem blockB_apply (c : Dev nD) (t : Fin cfg2.N) (q : Fin 40) :
    iblk2 (F := Ideal) V c 2 t (ix2 (0 : Fin 1) q) = V c main_v45 (ix2 (0 : Fin 1) q) := by
  obtain ⟨-, -, -, -, e20, e21, -⟩ := index_facts3 t
  show V c main_v45 (((cfg2.win 2).blk t).view.emb (ix2 (0 : Fin 1) q)) = V c main_v45 (ix2 (0 : Fin 1) q)
  refine congrArg (V c main_v45) (funext fun a => Fin.ext ?_)
  match a with
  | ⟨0, _⟩ => show win2_2.index t (0 : Fin 2) * 1 + 1 * 0 = 0; omega
  | ⟨1, _⟩ => show win2_2.index t (1 : Fin 2) * 40 + 1 * q.val = q.val; omega

/-- Entry (r, q) of block `t` of a [100000, 40] result array `G` is its entry (4000·t + r, q). -/
private theorem blockOut_apply (G : FVec Ideal S100000x40 .f32) (t : Fin cfg2.N) (r : Fin 4000) (q : Fin 40) (p : Fin 100000)
    (hp : p.val = t.val * 4000 + r.val) :
    ((cfg2.win 3).blk t).view.read (Elt Ideal) G (ix2 r q) = G (ix2 p q) := by
  obtain ⟨-, -, -, -, -, -, e30, e31⟩ := index_facts3 t
  show G (((cfg2.win 3).blk t).view.emb (ix2 r q)) = G (ix2 p q)
  refine congrArg G (funext fun a => Fin.ext ?_)
  match a with
  | ⟨0, _⟩ => show win2_3.index t (0 : Fin 2) * 4000 + 1 * r.val = p.val; omega
  | ⟨1, _⟩ => show win2_3.index t (1 : Fin 2) * 40 + 1 * q.val = q.val; omega

/-- What point `t` of the third kernel writes back is block `t` of `G3` of the region's three operands. -/
theorem flushed3_eq (c : Dev nD) (t : Fin cfg2.N) :
    (dat2 (F := Ideal) V c).flushed 3 t
      = ((cfg2.win 3).blk t).view.read (Elt Ideal) (Spec.G3 (V c main_v44) (V c main_v18) (V c main_v45)) := by
  show (cfg2.win 3).cut (grid2.coords t) ((dat2 (F := Ideal) V c).after 3 t) = _
  rw [after2_3]
  unfold out2_3
  rw [View.canon_unit_zero origin2]
  simp only [View.ld_unit_zero (S := S4000x40) origin2, View.ld_unit_zero (S := S4000x1) origin2,
    View.ld_unit_zero (S := S1x40) origin2]
  funext j
  obtain ⟨r, q, rfl⟩ : ∃ (r : Fin 4000) (q : Fin 40), j = ix2 r q := ⟨j 0, j 1, eq_ix2 j⟩
  have hN : cfg2.N = 25 := N_2
  have ht : t.val < cfg2.N := t.isLt
  have hr : r.val < 4000 := r.isLt
  have hp : t.val * 4000 + r.val < 100000 := by omega
  refine (payload3_apply (iblk2 (F := Ideal) V c 0 t) (iblk2 (F := Ideal) V c 1 t) (iblk2 (F := Ideal) V c 2 t) r q).trans ?_
  rw [blockA_apply V c t r q ⟨_, hp⟩ rfl, blockN_apply V c t r ⟨_, hp⟩ rfl, blockB_apply V c t q,
    blockOut_apply _ t r q ⟨_, hp⟩ rfl, Spec.G3_ix2]
  rfl

/-- An index of the [100000, 40] result is in point `t`'s block iff each coordinate is in the block's range. -/
private theorem mem_block3 (t : Fin cfg2.N) (i : S100000x40.Idx) :
    i ∈ ((cfg2.win 3).blk t).view.set ↔ ∀ a : Fin 2, win2_3.index t a * S4000x40.size a ≤ (i a).val
      ∧ (i a).val < win2_3.index t a * S4000x40.size a + S4000x40.size a := by
  show i ∈ ((View.whole main_v46).slice (win2_3.rect t)).set ↔ _
  rw [View.set_slice_whole, Rect.mem_set_unit]
  exact Iff.rfl

/-- Every index of the result lies in the block of the point numbered by its row divided by 4000. -/
private theorem cover3 (i : S100000x40.Idx) :
    ∃ t : Fin cfg2.N, (cfg2.win 3).flush t = true ∧ i ∈ ((cfg2.win 3).blk t).view.set := by
  have hN : cfg2.N = 25 := N_2
  have hi0 : (i 0).val < 100000 := (i 0).isLt
  have hi1 : (i 1).val < 40 := (i 1).isLt
  have hlt : (i 0).val / 4000 < cfg2.N := by omega
  obtain ⟨-, -, -, -, -, -, e30, e31⟩ := index_facts3 ⟨(i 0).val / 4000, hlt⟩
  refine ⟨⟨(i 0).val / 4000, hlt⟩, flush2_3 _, ?_⟩
  rw [mem_block3]
  intro a
  match a with
  | ⟨0, _⟩ =>
    show win2_3.index ⟨(i 0).val / 4000, hlt⟩ (0 : Fin 2) * 4000 ≤ (i 0).val
      ∧ (i 0).val < win2_3.index ⟨(i 0).val / 4000, hlt⟩ (0 : Fin 2) * 4000 + 4000
    have e : win2_3.index ⟨(i 0).val / 4000, hlt⟩ (0 : Fin 2) = (i 0).val / 4000 := e30
    omega
  | ⟨1, _⟩ =>
    show win2_3.index ⟨(i 0).val / 4000, hlt⟩ (1 : Fin 2) * 40 ≤ (i 1).val
      ∧ (i 1).val < win2_3.index ⟨(i 0).val / 4000, hlt⟩ (1 : Fin 2) * 40 + 40
    omega

/-- After the third kernel's 25 points its result array is `G3` of the region's three operands. -/
theorem arr2 (V : (c : Dev nD) → (b : Ref sig .tc) → Buf (Elt Ideal) ((c : Thread nD τ).loc b)) (c : Dev nD) :
    (dat2 (F := Ideal) V c).arrAt 3 cfg2.N = Spec.G3 (V c main_v44) (V c main_v18) (V c main_v45) :=
  (dat2 (F := Ideal) V c).arrAt_eq_of_cover 3 (Spec.G3 (V c main_v44) (V c main_v18) (V c main_v45))
    (fun t _ => flushed3_eq V c t) cover3

end Cert.KernelIdeal.Blocks

end
-- ==== Proof.KernelValue.lean ====
/-
  The idealized kernel's result as the specification's composition. The contents at each boundary of the run — after each
  stretch of host operations and after each call — are read from the launch memory forward: the normalisations and their
  columns, the first call's array (the first layer), its aggregation along the edges, the second call's array (the second
  layer), its aggregation, and the third call's array (the third layer), which is the result.
-/
import proofs.«103134_j59433757442077_2_alg».proof.Proof.HostStretch
import proofs.«103134_j59433757442077_2_alg».proof.Proof.Block0
import proofs.«103134_j59433757442077_2_alg».proof.Proof.Block1
import proofs.«103134_j59433757442077_2_alg».proof.Proof.Block2

set_option maxRecDepth 16384

noncomputable section

namespace Cert.KernelIdeal.KernelValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first call -/

set_option maxHeartbeats 2000000 in
/-- No host operation before the first call writes argument 0. -/
theorem W5_arg0 (c : Dev nD) : W5 m ρ c (Proc.devRef .tc main_arg0) = (m ((c : Thread nD τ).loc main_arg0)) := by
  dsimp only [W5, W4, W3, W2, W1, hostOps0_4, hostOps0_3, hostOps0_2, hostOps0_1, hostOps0]
  after_results
set_option maxHeartbeats 2000000 in
/-- No host operation before the first call writes argument 1. -/
theorem W5_arg1 (c : Dev nD) : W5 m ρ c (Proc.devRef .tc main_arg1) = (m ((c : Thread nD τ).loc main_arg1)) := by
  dsimp only [W5, W4, W3, W2, W1, hostOps0_4, hostOps0_3, hostOps0_2, hostOps0_1, hostOps0]
  after_results
set_option maxHeartbeats 2000000 in
/-- No host operation before the first call writes argument 2. -/
theorem W5_arg2 (c : Dev nD) : W5 m ρ c (Proc.devRef .tc main_arg2) = (m ((c : Thread nD τ).loc main_arg2)) := by
  dsimp only [W5, W4, W3, W2, W1, hostOps0_4, hostOps0_3, hostOps0_2, hostOps0_1, hostOps0]
  after_results
set_option maxHeartbeats 2000000 in
/-- No host operation before the first call writes argument 3. -/
theorem W5_arg3 (c : Dev nD) : W5 m ρ c (Proc.devRef .tc main_arg3) = (m ((c : Thread nD τ).loc main_arg3)) := by
  dsimp only [W5, W4, W3, W2, W1, hostOps0_4, hostOps0_3, hostOps0_2, hostOps0_1, hostOps0]
  after_results
set_option maxHeartbeats 2000000 in
/-- No host operation before the first call writes argument 4. -/
theorem W5_arg4 (c : Dev nD) : W5 m ρ c (Proc.devRef .tc main_arg4) = (m ((c : Thread nD τ).loc main_arg4)) := by
  dsimp only [W5, W4, W3, W2, W1, hostOps0_4, hostOps0_3, hostOps0_2, hostOps0_1, hostOps0]
  after_results
set_option maxHeartbeats 2000000 in
/-- No host operation before the first call writes argument 5. -/
theorem W5_arg5 (c : Dev nD) : W5 m ρ c (Proc.devRef .tc main_arg5) = (m ((c : Thread nD τ).loc main_arg5)) := by
  dsimp only [W5, W4, W3, W2, W1, hostOps0_4, hostOps0_3, hostOps0_2, hostOps0_1, hostOps0]
  after_results
set_option maxHeartbeats 2000000 in
/-- No host operation before the first call writes argument 6. -/
theorem W5_arg6 (c : Dev nD) : W5 m ρ c (Proc.devRef .tc main_arg6) = (m ((c : Thread nD τ).loc main_arg6)) := by
  dsimp only [W5, W4, W3, W2, W1, hostOps0_4, hostOps0_3, hostOps0_2, hostOps0_1, hostOps0]
  after_results

/-- After the first stretch: the comparison, the power and the constant of the first list's normalisation, and the second
    list's count. -/
theorem W1_parts (c : Dev nD) :
    W1 m ρ c (Proc.devRef .tc main_v8)
        = cmpf .ogt (Spec.count (m ((c : Thread nD τ).loc main_arg1))) (broadcastInDim S100000 ![] bcast_S_S100000 (constant (F := Ideal) S_ .f32 0x00000000#32))
    ∧ W1 m ρ c (Proc.devRef .tc main_v10)
        = Host.powf (Spec.count (m ((c : Thread nD τ).loc main_arg1))) (broadcastInDim S100000 ![] bcast_S_S100000 (constant (F := Ideal) S_ .f32 0xBF000000#32))
    ∧ W1 m ρ c (Proc.devRef .tc main_cst_4) = constant (F := Ideal) S_ .f32 0x00000000#32
    ∧ W1 m ρ c (Proc.devRef .tc main_v6) = Spec.count (m ((c : Thread nD τ).loc main_arg2)) := by
  dsimp only [W1, hostOps0]
  refine ⟨?_, ?_, ?_, ?_⟩
  · after_results; rfl
  · after_results; rfl
  · after_results
  · after_results; rfl

/-- The first list's normalisation. -/
theorem W2_v11 (c : Dev nD) : W2 m ρ c (Proc.devRef .tc main_v11) = Spec.nrm (m ((c : Thread nD τ).loc main_arg1)) :=
  (HostVals.select_src (W1 m ρ c) _ _ _ (W1_parts m ρ c).1 (W1_parts m ρ c).2.1 (W1_parts m ρ c).2.2.1).trans (by unfold Spec.nrm; rfl)

theorem W2_v6 (c : Dev nD) : W2 m ρ c (Proc.devRef .tc main_v6) = Spec.count (m ((c : Thread nD τ).loc main_arg2)) :=
  (HostVals.keep_s0_1_v6 (W1 m ρ c)).trans (W1_parts m ρ c).2.2.2

theorem W3_v11 (c : Dev nD) : W3 m ρ c (Proc.devRef .tc main_v11) = Spec.nrm (m ((c : Thread nD τ).loc main_arg1)) :=
  (HostVals.keep_s0_2_v11 (W2 m ρ c)).trans (W2_v11 m ρ c)

/-- The second list's normalisation. -/
theorem W4_v16 (c : Dev nD) : W4 m ρ c (Proc.devRef .tc main_v16) = Spec.nrm (m ((c : Thread nD τ).loc main_arg2)) :=
  (HostVals.select_dst (W3 m ρ c) _ _ _ (HostVals.parts_dst (W2 m ρ c) _ (W2_v6 m ρ c)).1
    (HostVals.parts_dst (W2 m ρ c) _ (W2_v6 m ρ c)).2.1 (HostVals.parts_dst (W2 m ρ c) _ (W2_v6 m ρ c)).2.2).trans (by unfold Spec.nrm; rfl)

theorem W4_v11 (c : Dev nD) : W4 m ρ c (Proc.devRef .tc main_v11) = Spec.nrm (m ((c : Thread nD τ).loc main_arg1)) :=
  (HostVals.keep_s0_3_v11 (W3 m ρ c)).trans (W3_v11 m ρ c)

/-- At the first call's entry: the two normalisations as columns, and the pair. -/
theorem W5_v17 (c : Dev nD) : W5 m ρ c (Proc.devRef .tc main_v17) = Spec.col (Spec.nrm (m ((c : Thread nD τ).loc main_arg1))) :=
  (HostVals.columns (W4 m ρ c) _ _ (W4_v11 m ρ c) (W4_v16 m ρ c)).1.trans (by unfold Spec.col; rfl)
theorem W5_v18 (c : Dev nD) : W5 m ρ c (Proc.devRef .tc main_v18) = Spec.col (Spec.nrm (m ((c : Thread nD τ).loc main_arg2))) :=
  (HostVals.columns (W4 m ρ c) _ _ (W4_v11 m ρ c) (W4_v16 m ρ c)).2.1.trans (by unfold Spec.col; rfl)
theorem W5_v19 (c : Dev nD) : W5 m ρ c (Proc.devRef .tc main_v19) = Spec.norms2 (m ((c : Thread nD τ).loc main_arg1)) (m ((c : Thread nD τ).loc main_arg2)) :=
  (HostVals.columns (W4 m ρ c) _ _ (W4_v11 m ρ c) (W4_v16 m ρ c)).2.2.trans (by unfold Spec.norms2 Spec.col; rfl)

/-! ## The first call -/

/-- The first call's array: the first layer. -/
theorem W6_v20 (c : Dev nD) : W6 m ρ c (Proc.devRef .tc main_v20)
    = Spec.G1 (m ((c : Thread nD τ).loc main_arg0)) (Spec.col (Spec.nrm (m ((c : Thread nD τ).loc main_arg1)))) (m ((c : Thread nD τ).loc main_arg3)) := by
  refine (W6_arr m ρ c 3).trans ((Blocks.arr0 (V5 m ρ) c).trans ?_)
  have e0 : V5 m ρ c main_arg0 = (m ((c : Thread nD τ).loc main_arg0)) := W5_arg0 m ρ c
  have e17 : V5 m ρ c main_v17 = Spec.col (Spec.nrm (m ((c : Thread nD τ).loc main_arg1))) := W5_v17 m ρ c
  have e3 : V5 m ρ c main_arg3 = (m ((c : Thread nD τ).loc main_arg3)) := W5_arg3 m ρ c
  rw [e0, e17, e3]

/-! ## Between the first and the second call -/

theorem W6_arg1 (c : Dev nD) : W6 m ρ c (Proc.devRef .tc main_arg1) = (m ((c : Thread nD τ).loc main_arg1)) :=
  (W6_of_ne m ρ c main_arg1 (by decide)).trans (W5_arg1 m ρ c)
theorem W6_arg2 (c : Dev nD) : W6 m ρ c (Proc.devRef .tc main_arg2) = (m ((c : Thread nD τ).loc main_arg2)) :=
  (W6_of_ne m ρ c main_arg2 (by decide)).trans (W5_arg2 m ρ c)
theorem W6_arg4 (c : Dev nD) : W6 m ρ c (Proc.devRef .tc main_arg4) = (m ((c : Thread nD τ).loc main_arg4)) :=
  (W6_of_ne m ρ c main_arg4 (by decide)).trans (W5_arg4 m ρ c)
theorem W6_arg5 (c : Dev nD) : W6 m ρ c (Proc.devRef .tc main_arg5) = (m ((c : Thread nD τ).loc main_arg5)) :=
  (W6_of_ne m ρ c main_arg5 (by decide)).trans (W5_arg5 m ρ c)
theorem W6_arg6 (c : Dev nD) : W6 m ρ c (Proc.devRef .tc main_arg6) = (m ((c : Thread nD τ).loc main_arg6)) :=
  (W6_of_ne m ρ c main_arg6 (by decide)).trans (W5_arg6 m ρ c)
theorem W6_v19 (c : Dev nD) : W6 m ρ c (Proc.devRef .tc main_v19) = Spec.norms2 (m ((c : Thread nD τ).loc main_arg1)) (m ((c : Thread nD τ).loc main_arg2)) :=
  (W6_of_ne m ρ c main_v19 (by decide)).trans (W5_v19 m ρ c)
theorem W6_v18 (c : Dev nD) : W6 m ρ c (Proc.devRef .tc main_v18) = Spec.col (Spec.nrm (m ((c : Thread nD τ).loc main_arg2))) :=
  (W6_of_ne m ρ c main_v18 (by decide)).trans (W5_v18 m ρ c)

/-- The first layer's rows gathered along the edges and accumulated per destination. -/
theorem W7_v31 (c : Dev nD) : W7 m ρ c (Proc.devRef .tc main_v31) = (Spec.aggr64 (Spec.G1 (m ((c : Thread nD τ).loc main_arg0)) (Spec.col (Spec.nrm (m ((c : Thread nD τ).loc main_arg1)))) (m ((c : Thread nD τ).loc main_arg3))) (m ((c : Thread nD τ).loc main_arg1)) (m ((c : Thread nD τ).loc main_arg2))) :=
  (HostVals.stretch1 (W6 m ρ c) _ _ _ _ (W6_v20 m ρ c) (W6_arg1 m ρ c) (W6_arg2 m ρ c) (W6_arg4 m ρ c)).1
/-- The first bias as a row. -/
theorem W7_v32 (c : Dev nD) : W7 m ρ c (Proc.devRef .tc main_v32) = Spec.row64 (m ((c : Thread nD τ).loc main_arg4)) :=
  (HostVals.stretch1 (W6 m ρ c) _ _ _ _ (W6_v20 m ρ c) (W6_arg1 m ρ c) (W6_arg2 m ρ c) (W6_arg4 m ρ c)).2.trans (by unfold Spec.row64; rfl)
theorem W7_v19 (c : Dev nD) : W7 m ρ c (Proc.devRef .tc main_v19) = Spec.norms2 (m ((c : Thread nD τ).loc main_arg1)) (m ((c : Thread nD τ).loc main_arg2)) :=
  (HostVals.keep_s1_v19 (W6 m ρ c)).trans (W6_v19 m ρ c)
theorem W7_v18 (c : Dev nD) : W7 m ρ c (Proc.devRef .tc main_v18) = Spec.col (Spec.nrm (m ((c : Thread nD τ).loc main_arg2))) :=
  (HostVals.keep_s1_v18 (W6 m ρ c)).trans (W6_v18 m ρ c)
theorem W7_arg1 (c : Dev nD) : W7 m ρ c (Proc.devRef .tc main_arg1) = (m ((c : Thread nD τ).loc main_arg1)) :=
  (HostVals.keep_s1_arg1 (W6 m ρ c)).trans (W6_arg1 m ρ c)
theorem W7_arg2 (c : Dev nD) : W7 m ρ c (Proc.devRef .tc main_arg2) = (m ((c : Thread nD τ).loc main_arg2)) :=
  (HostVals.keep_s1_arg2 (W6 m ρ c)).trans (W6_arg2 m ρ c)
theorem W7_arg5 (c : Dev nD) : W7 m ρ c (Proc.devRef .tc main_arg5) = (m ((c : Thread nD τ).loc main_arg5)) :=
  (HostVals.keep_s1_arg5 (W6 m ρ c)).trans (W6_arg5 m ρ c)
theorem W7_arg6 (c : Dev nD) : W7 m ρ c (Proc.devRef .tc main_arg6) = (m ((c : Thread nD τ).loc main_arg6)) :=
  (HostVals.keep_s1_arg6 (W6 m ρ c)).trans (W6_arg6 m ρ c)

/-! ## The second call -/

/-- The second call's array: the second layer. -/
theorem W8_v33 (c : Dev nD) : W8 m ρ c (Proc.devRef .tc main_v33) = (Spec.G2 (Spec.aggr64 (Spec.G1 (m ((c : Thread nD τ).loc main_arg0)) (Spec.col (Spec.nrm (m ((c : Thread nD τ).loc main_arg1)))) (m ((c : Thread nD τ).loc main_arg3))) (m ((c : Thread nD τ).loc main_arg1)) (m ((c : Thread nD τ).loc main_arg2))) (Spec.norms2 (m ((c : Thread nD τ).loc main_arg1)) (m ((c : Thread nD τ).loc main_arg2))) (Spec.row64 (m ((c : Thread nD τ).loc main_arg4))) (m ((c : Thread nD τ).loc main_arg5))) := by
  refine (W8_arr m ρ c 4).trans ((Blocks.arr1 (V7 m ρ) c).trans ?_)
  have e31 : V7 m ρ c main_v31 = (Spec.aggr64 (Spec.G1 (m ((c : Thread nD τ).loc main_arg0)) (Spec.col (Spec.nrm (m ((c : Thread nD τ).loc main_arg1)))) (m ((c : Thread nD τ).loc main_arg3))) (m ((c : Thread nD τ).loc main_arg1)) (m ((c : Thread nD τ).loc main_arg2))) := W7_v31 m ρ c
  have e19 : V7 m ρ c main_v19 = Spec.norms2 (m ((c : Thread nD τ).loc main_arg1)) (m ((c : Thread nD τ).loc main_arg2)) := W7_v19 m ρ c
  have e32 : V7 m ρ c main_v32 = Spec.row64 (m ((c : Thread nD τ).loc main_arg4)) := W7_v32 m ρ c
  have e5 : V7 m ρ c main_arg5 = (m ((c : Thread nD τ).loc main_arg5)) := W7_arg5 m ρ c
  rw [e31, e19, e32, e5]

theorem W8_arg1 (c : Dev nD) : W8 m ρ c (Proc.devRef .tc main_arg1) = (m ((c : Thread nD τ).loc main_arg1)) :=
  (W8_of_ne m ρ c main_arg1 (by decide)).trans (W7_arg1 m ρ c)
theorem W8_arg2 (c : Dev nD) : W8 m ρ c (Proc.devRef .tc main_arg2) = (m ((c : Thread nD τ).loc main_arg2)) :=
  (W8_of_ne m ρ c main_arg2 (by decide)).trans (W7_arg2 m ρ c)
theorem W8_arg6 (c : Dev nD) : W8 m ρ c (Proc.devRef .tc main_arg6) = (m ((c : Thread nD τ).loc main_arg6)) :=
  (W8_of_ne m ρ c main_arg6 (by decide)).trans (W7_arg6 m ρ c)
theorem W8_v18 (c : Dev nD) : W8 m ρ c (Proc.devRef .tc main_v18) = Spec.col (Spec.nrm (m ((c : Thread nD τ).loc main_arg2))) :=
  (W8_of_ne m ρ c main_v18 (by decide)).trans (W7_v18 m ρ c)

/-! ## Between the second and the third call -/

/-- The second layer's rows gathered along the edges and accumulated per destination. -/
theorem W9_v44 (c : Dev nD) : W9 m ρ c (Proc.devRef .tc main_v44) = (Spec.aggr40 (Spec.G2 (Spec.aggr64 (Spec.G1 (m ((c : Thread nD τ).loc main_arg0)) (Spec.col (Spec.nrm (m ((c : Thread nD τ).loc main_arg1)))) (m ((c : Thread nD τ).loc main_arg3))) (m ((c : Thread nD τ).loc main_arg1)) (m ((c : Thread nD τ).loc main_arg2))) (Spec.norms2 (m ((c : Thread nD τ).loc main_arg1)) (m ((c : Thread nD τ).loc main_arg2))) (Spec.row64 (m ((c : Thread nD τ).loc main_arg4))) (m ((c : Thread nD τ).loc main_arg5))) (m ((c : Thread nD τ).loc main_arg1)) (m ((c : Thread nD τ).loc main_arg2))) :=
  (HostVals.stretch2 (W8 m ρ c) _ _ _ _ (W8_v33 m ρ c) (W8_arg1 m ρ c) (W8_arg2 m ρ c) (W8_arg6 m ρ c)).1
/-- The second bias as a row. -/
theorem W9_v45 (c : Dev nD) : W9 m ρ c (Proc.devRef .tc main_v45) = Spec.row40 (m ((c : Thread nD τ).loc main_arg6)) :=
  (HostVals.stretch2 (W8 m ρ c) _ _ _ _ (W8_v33 m ρ c) (W8_arg1 m ρ c) (W8_arg2 m ρ c) (W8_arg6 m ρ c)).2.trans (by unfold Spec.row40; rfl)
theorem W9_v18 (c : Dev nD) : W9 m ρ c (Proc.devRef .tc main_v18) = Spec.col (Spec.nrm (m ((c : Thread nD τ).loc main_arg2))) :=
  (HostVals.keep_s2_v18 (W8 m ρ c)).trans (W8_v18 m ρ c)

/-! ## The third call: the result -/

/-- The result array after the run: the third layer of the second aggregation. -/
theorem result (c : Dev nD) : W10 m ρ c (Proc.devRef .tc main_v46)
    = Spec.G3 (Spec.aggr40 (Spec.G2 (Spec.aggr64 (Spec.G1 (m ((c : Thread nD τ).loc main_arg0)) (Spec.col (Spec.nrm (m ((c : Thread nD τ).loc main_arg1)))) (m ((c : Thread nD τ).loc main_arg3))) (m ((c : Thread nD τ).loc main_arg1)) (m ((c : Thread nD τ).loc main_arg2))) (Spec.norms2 (m ((c : Thread nD τ).loc main_arg1)) (m ((c : Thread nD τ).loc main_arg2))) (Spec.row64 (m ((c : Thread nD τ).loc main_arg4))) (m ((c : Thread nD τ).loc main_arg5))) (m ((c : Thread nD τ).loc main_arg1)) (m ((c : Thread nD τ).loc main_arg2))) (Spec.col (Spec.nrm (m ((c : Thread nD τ).loc main_arg2)))) (Spec.row40 (m ((c : Thread nD τ).loc main_arg6))) := by
  refine (W10_arr m ρ c 3).trans ((Blocks.arr2 (V9 m ρ) c).trans ?_)
  have e44 : V9 m ρ c main_v44 = (Spec.aggr40 (Spec.G2 (Spec.aggr64 (Spec.G1 (m ((c : Thread nD τ).loc main_arg0)) (Spec.col (Spec.nrm (m ((c : Thread nD τ).loc main_arg1)))) (m ((c : Thread nD τ).loc main_arg3))) (m ((c : Thread nD τ).loc main_arg1)) (m ((c : Thread nD τ).loc main_arg2))) (Spec.norms2 (m ((c : Thread nD τ).loc main_arg1)) (m ((c : Thread nD τ).loc main_arg2))) (Spec.row64 (m ((c : Thread nD τ).loc main_arg4))) (m ((c : Thread nD τ).loc main_arg5))) (m ((c : Thread nD τ).loc main_arg1)) (m ((c : Thread nD τ).loc main_arg2))) := W9_v44 m ρ c
  have e18 : V9 m ρ c main_v18 = Spec.col (Spec.nrm (m ((c : Thread nD τ).loc main_arg2))) := W9_v18 m ρ c
  have e45 : V9 m ρ c main_v45 = Spec.row40 (m ((c : Thread nD τ).loc main_arg6)) := W9_v45 m ρ c
  rw [e44, e18, e45]

end Cert.KernelIdeal.KernelValue

end
-- ==== Proof.InputsFinite.lean ====
import proofs.«103134_j59433757442077_2_alg».proof.Defs
import proofs.«103134_j59433757442077_2_alg».proof.Proof.Gen.Pre_finite_inputs
import proofs.«103134_j59433757442077_2_alg».proof.Proof.Gen.KernelIdeal
import proofs.«103134_j59433757442077_2_alg».proof.Proof.LibFinite
import Idealize.ShloMosaic.Lib.ReduceAll
import Idealize.ShloMosaic.Lib.ValueIdx

/-!
  From the precondition to the inputs' entries. The precondition says that, for each of the five float arguments, the
  conjunction over all entries of `|x| < +∞` holds. Read back entry by entry: every entry of every float argument is a
  real number.
-/

noncomputable section

namespace Cert.KernelIdeal.InputsFinite

open Idealize.ShloMosaic Idealize.ShloMosaic.TcCoe Idealize.SL.Sem Idealize.ShloMosaic.LibFinite

/-- A rank-0 array has one index. -/
instance : Subsingleton Cert.Pre_finite_inputs.S_.Idx := ⟨fun a b => funext fun d => d.elim0⟩

/-- The single-precision word `0x7F800000` denotes +∞. -/
theorem ofBits_inf : Ideal.ofBits .f32 0x7F800000#32 = (⊤ : EReal) := by
  simp [Ideal.ofBits, Ideal.ieee]

/-- An extended real whose absolute value `max x (-x)` compares below +∞ is a real number. -/
theorem isReal_of_abs_lt_inf (x : EReal)
    (h : Ideal.cmp .olt (max x (-x)) (Ideal.ofBits .f32 0x7F800000#32) = 1#1) : IsReal x := by
  rw [ofBits_inf] at h
  induction x using EReal.rec with
  | bot => exact absurd h (by simp [Ideal.cmp])
  | coe r => exact ⟨r, rfl⟩
  | top => exact absurd h (by simp [Ideal.cmp])

/-- One `all (|x| < +∞)` of the precondition, read back: every entry of `x` is a real number. -/
theorem all_real {s : Shape} {axes : List (Fin s.rank)} (x : FVec Ideal s .f32)
    (dims : Fin Cert.Pre_finite_inputs.S_.rank → Fin s.rank) (hb : Cert.Pre_finite_inputs.S_.BroadcastsInDim s dims)
    (hr : s.ReducesTo axes Cert.Pre_finite_inputs.S_) (hu : 0 < Cert.Pre_finite_inputs.S_.numel)
    (e : Host.reduce IntOp.andi
        (cmpf .olt (Host.absf x) (broadcastInDim s dims hb (constant (F := Ideal) Cert.Pre_finite_inputs.S_ .f32 0x7F800000#32)))
        (constantI Cert.Pre_finite_inputs.S_ 1 1#1) hr hu ValueIdx.ix0 = 1#1)
    (i : s.Idx) : IsReal (x i) :=
  isReal_of_abs_lt_inf (x i) (Host.reduce_andi_all _ _ hr hu ValueIdx.ix0 e i)

/-- Under the precondition every entry of each of the five float arguments is a real number. -/
theorem inputs_real (m : (ℓ : Loc Cert.KernelIdeal.nD Cert.KernelIdeal.τ Cert.KernelIdeal.sig) → Buf (Elt Ideal) ℓ) (h : Cert.Pre_KernelIdeal (hPre_finite_inputs := Cert.Pre_finite_inputs.Gen.facts) m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i)) := by
  have e := congrFun (h c) ValueIdx.ix0
  dsimp only [Cert.Pre_finite_inputs.fn, Cert.Pre_finite_inputs.fn_part1] at e
  obtain ⟨e4, e22⟩ := IntOp.andi_eq_one.1 e
  obtain ⟨e3, e17⟩ := IntOp.andi_eq_one.1 e4
  obtain ⟨e2, e12⟩ := IntOp.andi_eq_one.1 e3
  obtain ⟨e03, e07⟩ := IntOp.andi_eq_one.1 e2
  exact ⟨fun i => all_real _ _ _ _ _ e03 i, fun i => all_real _ _ _ _ _ e07 i, fun i => all_real _ _ _ _ _ e12 i,
    fun i => all_real _ _ _ _ _ e17 i, fun i => all_real _ _ _ _ _ e22 i⟩

end Cert.KernelIdeal.InputsFinite

end
-- ==== Proof.lean ====
/-
  A two-layer graph convolution with symmetric degree normalisation, computed by three kernels among host gathers and
  scatter-adds, against its plain reference, at the ideal instance (floats are extended reals, format changes the identity).

  Both programs compute, for the edge lists src, dst: the normalisations n_s = count(src)^(-1/2), n_d = count(dst)^(-1/2)
  (0 where a count is 0); h1; a1 = the rows of h1 gathered along src and accumulated along dst; l1 = max(a1·n_d + b1, 0);
  h2; a2 likewise from h2; and the result max(a2·n_d + b2, 0). They differ in ONE place per layer: the reference forms
  h1 = (x · n_s) W1 and h2 = (l1 · n_s) W2, scaling the rows of the left operand first, while the kernels form
  h1 = (x W1) · n_s and h2 = (l1 W2) · n_s, scaling the rows of the product. For a row of reals, real weights and a real
  factor the two are one number: a finite sum of products commutes with the factor. The precondition makes x, W1, b1, W2
  real; the counts are finite sums of ones, so the normalisations are real; and reals are kept by every stage in between
  (a product sum, a gather, a scatter-add from zeros, a maximum with 0). On the extended reals the law would fail at an
  infinity, which is why the precondition is used.

  The frames of the two kernel programs are the generated ones; the reference's frame is its run with the result dropped.
  The idealization rewrote nothing, so there is nothing to preserve beyond the program text itself.
-/
import proofs.«103134_j59433757442077_2_alg».proof.Defs
import proofs.«103134_j59433757442077_2_alg».proof.Proof.Gen.Kernel
import proofs.«103134_j59433757442077_2_alg».proof.Proof.Gen.Kernel.Skeleton
import proofs.«103134_j59433757442077_2_alg».proof.Proof.Gen.Kernel.Launch
import proofs.«103134_j59433757442077_2_alg».proof.Proof.Gen.Kernel.Points
import proofs.«103134_j59433757442077_2_alg».proof.Proof.Gen.Kernel.Frame
import proofs.«103134_j59433757442077_2_alg».proof.Proof.Gen.KernelIdeal
import proofs.«103134_j59433757442077_2_alg».proof.Proof.Gen.KernelIdeal.Skeleton
import proofs.«103134_j59433757442077_2_alg».proof.Proof.Gen.KernelIdeal.Launch
import proofs.«103134_j59433757442077_2_alg».proof.Proof.Gen.KernelIdeal.Points
import proofs.«103134_j59433757442077_2_alg».proof.Proof.Gen.KernelIdeal.Frame
import proofs.«103134_j59433757442077_2_alg».proof.Proof.Gen.ReferenceIdeal
import proofs.«103134_j59433757442077_2_alg».proof.Proof.Gen.Pre_finite_inputs
import proofs.«103134_j59433757442077_2_alg».proof.Proof.RefRunP
import proofs.«103134_j59433757442077_2_alg».proof.Proof.RefReadP
import proofs.«103134_j59433757442077_2_alg».proof.Proof.RefValue
import proofs.«103134_j59433757442077_2_alg».proof.Proof.KernelRun
import proofs.«103134_j59433757442077_2_alg».proof.Proof.KernelValue
import proofs.«103134_j59433757442077_2_alg».proof.Proof.InputsFinite
import Idealize.ShloMosaic.Adequacy
import Idealize.ShloMosaic.Init

set_option maxRecDepth 16384

noncomputable section

namespace Cert.Proof

open Idealize.ShloMosaic Idealize.ShloMosaic.TcCoe Idealize.SL.Sem

/-- The reference run's result term is its last stage applied to the argument arrays. -/
theorem ref_result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v75 m c
      = Cert.ReferenceIdeal.ReadP.val_main_v75 (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) := by
  unfold Cert.ReferenceIdeal.ValueP.res_main_v75; rfl

theorem frame_kernel : Cert.frame_Kernel (hKernel := Cert.Kernel.Gen.facts) (hPre_finite_inputs := Cert.Pre_finite_inputs.Gen.facts) :=
  fun m ρ _ => Cert.Kernel.Gen.frame m ρ
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ
/-- The reference's frame: its run, the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both idealized programs end with the same result array: the kernel's is the specification's composition of the three
    layers and two aggregations by its run; the reference's is the same composition where the float arguments are real,
    which the precondition says of the kernel's memory and the agreement of the two memories carries over. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W10 m ρ c (Proc.devRef .tc Cert.KernelIdeal.main_v46),
    Cert.KernelIdeal.RunResult.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h3, h4, h5, -⟩ := Cert.KernelIdeal.InputsFinite.inputs_real m hpre c
  obtain ⟨e0, e1, e2, e3, e4, e5, e6⟩ := hagree c
  rw [ref_result_eq m' c, e0, e1, e2, e3, e4, e5, e6]
  exact (Cert.ReferenceIdeal.RefValue.ref_value _ _ _ _ _ _ _ h0 h3 h4 h5).trans (Cert.KernelIdeal.KernelValue.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
